-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S4096x1024 : Shape := ⟨2, ![4096, 1024]⟩
abbrev S1x1 : Shape := ⟨2, ![1, 1]⟩
abbrev S1x4096 : Shape := ⟨2, ![1, 4096]⟩
abbrev S256x1024 : Shape := ⟨2, ![256, 1024]⟩
abbrev S512x1024 : Shape := ⟨2, ![512, 1024]⟩
abbrev S1x512 : Shape := ⟨2, ![1, 512]⟩
abbrev S256 : Shape := ⟨1, ![256]⟩
abbrev S256x1 : Shape := ⟨2, ![256, 1]⟩
abbrev S512 : Shape := ⟨1, ![512]⟩
abbrev S512x1 : Shape := ⟨2, ![512, 1]⟩
abbrev S1024x512 : Shape := ⟨2, ![1024, 512]⟩
abbrev S256x512 : Shape := ⟨2, ![256, 512]⟩
abbrev S1 : Shape := ⟨1, ![1]⟩
abbrev S_ : Shape := ⟨0, ![]⟩
abbrev S4096 : Shape := ⟨1, ![4096]⟩

abbrev nBuf : Space → Nat
  | .hbm => 19
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1, .f32⟩
  | .hbm, ⟨4, _⟩ => ⟨S1x1, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | .local _ .vmem, ⟨7, _⟩ => ⟨S1x1, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c0_i32_26 : BitVec 32 := 0#32
  let v58 : BitVec 1 := Scalar.cmpi .eq arg1 c0_i32_26
  let v59 : BitVec 32 := Scalar.extui v58
  let c0_i32_27 : BitVec 32 := 0#32
  let v60 : BitVec 1 := Scalar.cmpi .ne v59 c0_i32_27
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S256x1024_S256x1024_0_0 : ∀ a, (![0, 0] : Fin 2 → Nat) a + S256x1024.size a ≤ S256x1024.size a
  h_S256x1024 : 0 < S256x1024.numel
  inb_S512x1024_S512x1024_0_0 : ∀ a, (![0, 0] : Fin 2 → Nat) a + S512x1024.size a ≤ S512x1024.size a
  h_S512x1024 : 0 < S512x1024.numel
  reduces_S256x1024_S256 : S256x1024.Reduces [1] S256
  shapeCasts_S256_S256x1 : S256.ShapeCasts S256x1
  broadcasts_S256x1_S256x1024 : S256x1.Broadcasts S256x1024
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  transposes_S512x1024_p1_0_S1024x512 : S512x1024.Transposes [1, 0] S1024x512
  reduces_S256x512_S256 : S256x512.Reduces [1] S256
  reduces_S256x1_S1 : S256x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  slices_S256x512_o0_0_S1x512 : S256x512.Slices ![0, 0] S1x512
  inb_S1x512_S1x512_0_0 : ∀ a, (![0, 0] : Fin 2 → Nat) a + S1x512.size a ≤ S1x512.size a
  h_S1x512 : 0 < S1x512.numel
  shapeCasts_S1x1_S_ : S1x1.ShapeCasts S_
  shapeCasts_S1x4096_S4096 : S1x4096.ShapeCasts S4096
  dot_S256x1024_S1024x512_S256x512_1_0_0_1_n_n_wf : DotDims.WF S256x1024 S1024x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1x4096 : Shape := ⟨2, ![1, 4096]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x4096, .f32⟩
  | .hbm, ⟨51, _⟩ => ⟨S4096, .f32⟩
  | .hbm, ⟨52, _⟩ => ⟨S1x4096, .f32⟩
  | .hbm, ⟨53, _⟩ => ⟨S4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  reducesTo_S4096x4096_S_d0_1 : S4096x4096.ReducesTo [0, 1] S_
  slices_S4096x4096_S1x4096_0_0 : S4096x4096.Slices ![0, 0] S1x4096
  shapeCasts_S1x4096_S4096 : S1x4096.ShapeCasts S4096
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.BitsShared.lean ====
/-
  What the three control cases of the kernel body share.

  The body branches twice on the grid point (j, i): at the very first point (j = 0 and i = 0) it clears the two
  running sums before adding this tile's totals to them, and at the first point of each row of tiles (i = 0) it
  stores row 0 of the two similarity tiles. Over the 128 points, numbered j * 16 + i, the first condition holds at
  point 0 only and the second at the multiples of 16.
-/
import proofs.«112217_j43198781063230_1_alg».proof.Proof.Gen.Kernel.Frame
import proofs.«112217_j43198781063230_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point": the condition under which the running sums are cleared. -/
abbrev condFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- "This is the first point of a row of tiles" (i = 0): the condition under which row 0 of the tiles is stored. -/
abbrev condRow (i : grid0.Coords) : Prop := k0_cond2 i = 1#1

/-- The first condition holds at point 0 only. -/
theorem condFirst_iff : ∀ t : Fin cfg0.N, condFirst (grid0.coords t) ↔ t.val = 0 :=
  (by decide +kernel : ∀ t : Fin grid0.N, condFirst (grid0.coords t) ↔ t.val = 0)

/-- The second condition holds at the multiples of 16. -/
theorem condRow_iff : ∀ t : Fin cfg0.N, condRow (grid0.coords t) ↔ t.val % 16 = 0 :=
  (by decide +kernel : ∀ t : Fin grid0.N, condRow (grid0.coords t) ↔ t.val % 16 = 0)

/-- Each window's current staging memref at point `t`, and that it is a whole buffer. -/
abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)

/-- One staging buffer of each output window, through which the output's contents are stated. -/
abbrev VO3 : View sig .tc .vmem S1x1 .f32 := (Memref.whole cc0_stg3_0 : Memref sig .tc .vmem S1x1 .f32).view
abbrev VO4 : View sig .tc .vmem S1x1 .f32 := (Memref.whole cc0_stg4_0 : Memref sig .tc .vmem S1x1 .f32).view
abbrev VO5 : View sig .tc .vmem S1x512 .f32 := (Memref.whole cc0_stg5_0 : Memref sig .tc .vmem S1x512 .f32).view
abbrev VO6 : View sig .tc .vmem S1x512 .f32 := (Memref.whole cc0_stg6_0 : Memref sig .tc .vmem S1x512 .f32).view

end Cert.Kernel.Hand

end
-- ==== Proof.BitsRunA.lean ====
/-
  The kernel body at the first grid point: both branches are taken. The two running sums are cleared and then
  receive this tile's totals, and row 0 of each similarity tile is stored.
-/
import proofs.«112217_j43198781063230_1_alg».proof.Proof.BitsShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref in this case, as lists of stored pieces (last first),
    with the proof that on whole staging memrefs holding the three input blocks `x0`, `x1`, `x2` the body runs to its
    continuation, the inputs as they were and each output's buffer with those pieces written. -/
noncomputable def runFirst (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i)
    (x0 : Vec F S256x1024 .f32) (x1 : Vec F S512x1024 .f32) (x2 : Vec F S512x1024 .f32) :
    Σ' (L5 : List (View.Piece (Elt F) S1x1 .f32)), Σ' (L6 : List (View.Piece (Elt F) S1x1 .f32)), Σ' (L7 : List (View.Piece (Elt F) S1x512 .f32)), { L8 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [H6]; · iexists _; iexact H6
    isplitl [H7]; · iexists _; iexact H7
    iexists _; iexact H8

end Cert.Kernel.Hand

end
-- ==== Proof.BitsRunB.lean ====
/-
  The kernel body at a point that is not the first of its row of tiles (i ≠ 0): neither branch is taken. The two
  running sums, found at `xo5` and `xo6`, receive this tile's totals; the two row buffers are not touched.
-/
import proofs.«112217_j43198781063230_1_alg».proof.Proof.BitsRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref in this case, as lists of stored pieces (last first),
    with the proof that on whole staging memrefs holding the three input blocks `x0`, `x1`, `x2` the body runs to its
    continuation, the inputs as they were and each output's buffer with those pieces written. -/
noncomputable def runInner (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : ¬condRow i)
    (x0 : Vec F S256x1024 .f32) (x1 : Vec F S512x1024 .f32) (x2 : Vec F S512x1024 .f32) (xo5 xo6 : Vec F S1x1 .f32) :
    Σ' (L5 : List (View.Piece (Elt F) S1x1 .f32)), { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo5 ∗ owns (c : Thread nD τ) arg6 fullShare xo6
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf5; obtain rfl := harg6.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    iexists _; iexact H6

end Cert.Kernel.Hand

end
-- ==== Proof.BitsRunC.lean ====
/-
  The kernel body at the first point of a later row of tiles (i = 0, j ≠ 0): only the second branch is taken. The two
  running sums, found at `xo5` and `xo6`, receive this tile's totals, and row 0 of each similarity tile is stored.
-/
import proofs.«112217_j43198781063230_1_alg».proof.Proof.BitsRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref in this case, as lists of stored pieces (last first),
    with the proof that on whole staging memrefs holding the three input blocks `x0`, `x1`, `x2` the body runs to its
    continuation, the inputs as they were and each output's buffer with those pieces written. -/
noncomputable def runRowStart (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i)
    (x0 : Vec F S256x1024 .f32) (x1 : Vec F S512x1024 .f32) (x2 : Vec F S512x1024 .f32) (xo5 xo6 : Vec F S1x1 .f32) :
    Σ' (L5 : List (View.Piece (Elt F) S1x1 .f32)), Σ' (L6 : List (View.Piece (Elt F) S1x1 .f32)), Σ' (L7 : List (View.Piece (Elt F) S1x512 .f32)), { L8 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo5 ∗ owns (c : Thread nD τ) arg6 fullShare xo6 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf5; obtain rfl := harg6.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [H6]; · iexists _; iexact H6
    isplitl [H7]; · iexists _; iexact H7
    iexists _; iexact H8

end Cert.Kernel.Hand

end
-- ==== Proof.BitsData.lean ====
/-
  The kernel's frame: what the four outputs' staging buffers hold after each grid point, the body's triple at a
  generic point, and the run of the whole program.

  After point t = j * 16 + i the two 1 × 1 accumulators hold the totals of all tiles visited so far (cleared at the
  first point, carried from point to point, written back once after the last point). The two 1 × 512 row buffers
  are stored at the first point of each row of tiles (i = 0), are then left alone for the fifteen points that
  follow, and are written back after the last of them: so through those fifteen points, write-back included, they
  hold what the first point of the row stored.
-/
import proofs.«112217_j43198781063230_1_alg».proof.Proof.BitsRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each output it stores into -/

theorem coverFirst3 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) (y : S1x1.Idx) :
    ∃ pc ∈ (runFirst c i arg2 harg2 arg3 harg3 arg4 harg4 arg5 harg5 arg6 harg6 arg7 harg7 arg8 harg8 hc1 hc2 x0 x1 x2).1, y ∈ pc.1.set :=
  View.cover_of_tiledL (runFirst c i arg2 harg2 arg3 harg3 arg4 harg4 arg5 harg5 arg6 harg6 arg7 harg7 arg8 harg8 hc1 hc2 x0 x1 x2).1 S1x1.size (by sl_kernel_rfl) y

/-- What this case leaves in output window 3's staging buffer: its stored pieces read back. -/
def outFirst3 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) : Vec F S1x1 .f32 :=
  VO3.read (Elt F) (VO3.writes (Elt F) VO3.junk (runFirst c i arg2 harg2 arg3 harg3 arg4 harg4 arg5 harg5 arg6 harg6 arg7 harg7 arg8 harg8 hc1 hc2 x0 x1 x2).1)

theorem coverFirst4 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) (y : S1x1.Idx) :
    ∃ pc ∈ (runFirst c i arg2 harg2 arg3 harg3 arg4 harg4 arg5 harg5 arg6 harg6 arg7 harg7 arg8 harg8 hc1 hc2 x0 x1 x2).2.1, y ∈ pc.1.set :=
  View.cover_of_tiledL (runFirst c i arg2 harg2 arg3 harg3 arg4 harg4 arg5 harg5 arg6 harg6 arg7 harg7 arg8 harg8 hc1 hc2 x0 x1 x2).2.1 S1x1.size (by sl_kernel_rfl) y

/-- What this case leaves in output window 4's staging buffer: its stored pieces read back. -/
def outFirst4 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) : Vec F S1x1 .f32 :=
  VO4.read (Elt F) (VO4.writes (Elt F) VO4.junk (runFirst c i arg2 harg2 arg3 harg3 arg4 harg4 arg5 harg5 arg6 harg6 arg7 harg7 arg8 harg8 hc1 hc2 x0 x1 x2).2.1)

theorem coverFirst5 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) (y : S1x512.Idx) :
    ∃ pc ∈ (runFirst c i arg2 harg2 arg3 harg3 arg4 harg4 arg5 harg5 arg6 harg6 arg7 harg7 arg8 harg8 hc1 hc2 x0 x1 x2).2.2.1, y ∈ pc.1.set :=
  View.cover_of_tiledL (runFirst c i arg2 harg2 arg3 harg3 arg4 harg4 arg5 harg5 arg6 harg6 arg7 harg7 arg8 harg8 hc1 hc2 x0 x1 x2).2.2.1 S1x512.size (by sl_kernel_rfl) y

/-- What this case leaves in output window 5's staging buffer: its stored pieces read back. -/
def outFirst5 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) : Vec F S1x512 .f32 :=
  VO5.read (Elt F) (VO5.writes (Elt F) VO5.junk (runFirst c i arg2 harg2 arg3 harg3 arg4 harg4 arg5 harg5 arg6 harg6 arg7 harg7 arg8 harg8 hc1 hc2 x0 x1 x2).2.2.1)

theorem coverFirst6 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) (y : S1x512.Idx) :
    ∃ pc ∈ (runFirst c i arg2 harg2 arg3 harg3 arg4 harg4 arg5 harg5 arg6 harg6 arg7 harg7 arg8 harg8 hc1 hc2 x0 x1 x2).2.2.2.1, y ∈ pc.1.set :=
  View.cover_of_tiledL (runFirst c i arg2 harg2 arg3 harg3 arg4 harg4 arg5 harg5 arg6 harg6 arg7 harg7 arg8 harg8 hc1 hc2 x0 x1 x2).2.2.2.1 S1x512.size (by sl_kernel_rfl) y

/-- What this case leaves in output window 6's staging buffer: its stored pieces read back. -/
def outFirst6 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) : Vec F S1x512 .f32 :=
  VO6.read (Elt F) (VO6.writes (Elt F) VO6.junk (runFirst c i arg2 harg2 arg3 harg3 arg4 harg4 arg5 harg5 arg6 harg6 arg7 harg7 arg8 harg8 hc1 hc2 x0 x1 x2).2.2.2.1)

theorem coverInner3 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : ¬condRow i) (x0 : Vec F S256x1024 .f32) (x1 : Vec F S512x1024 .f32) (x2 : Vec F S512x1024 .f32) (xo5 xo6 : Vec F S1x1 .f32) (y : S1x1.Idx) :
    ∃ pc ∈ (runInner c i arg2 harg2 arg3 harg3 arg4 harg4 arg5 harg5 arg6 harg6 arg7 harg7 arg8 harg8 hc1 hc2 x0 x1 x2 xo5 xo6).1, y ∈ pc.1.set :=
  View.cover_of_tiledL (runInner c i arg2 harg2 arg3 harg3 arg4 harg4 arg5 harg5 arg6 harg6 arg7 harg7 arg8 harg8 hc1 hc2 x0 x1 x2 xo5 xo6).1 S1x1.size (by sl_kernel_rfl) y

/-- What this case leaves in output window 3's staging buffer: its stored pieces read back. -/
def outInner3 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : ¬condRow i) (x0 : Vec F S256x1024 .f32) (x1 : Vec F S512x1024 .f32) (x2 : Vec F S512x1024 .f32) (xo5 xo6 : Vec F S1x1 .f32) : Vec F S1x1 .f32 :=
  VO3.read (Elt F) (VO3.writes (Elt F) VO3.junk (runInner c i arg2 harg2 arg3 harg3 arg4 harg4 arg5 harg5 arg6 harg6 arg7 harg7 arg8 harg8 hc1 hc2 x0 x1 x2 xo5 xo6).1)

theorem coverInner4 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : ¬condRow i) (x0 : Vec F S256x1024 .f32) (x1 : Vec F S512x1024 .f32) (x2 : Vec F S512x1024 .f32) (xo5 xo6 : Vec F S1x1 .f32) (y : S1x1.Idx) :
    ∃ pc ∈ (runInner c i arg2 harg2 arg3 harg3 arg4 harg4 arg5 harg5 arg6 harg6 arg7 harg7 arg8 harg8 hc1 hc2 x0 x1 x2 xo5 xo6).2.1, y ∈ pc.1.set :=
  View.cover_of_tiledL (runInner c i arg2 harg2 arg3 harg3 arg4 harg4 arg5 harg5 arg6 harg6 arg7 harg7 arg8 harg8 hc1 hc2 x0 x1 x2 xo5 xo6).2.1 S1x1.size (by sl_kernel_rfl) y

/-- What this case leaves in output window 4's staging buffer: its stored pieces read back. -/
def outInner4 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : ¬condRow i) (x0 : Vec F S256x1024 .f32) (x1 : Vec F S512x1024 .f32) (x2 : Vec F S512x1024 .f32) (xo5 xo6 : Vec F S1x1 .f32) : Vec F S1x1 .f32 :=
  VO4.read (Elt F) (VO4.writes (Elt F) VO4.junk (runInner c i arg2 harg2 arg3 harg3 arg4 harg4 arg5 harg5 arg6 harg6 arg7 harg7 arg8 harg8 hc1 hc2 x0 x1 x2 xo5 xo6).2.1)

theorem coverRow3 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) (y : S1x1.Idx) :
    ∃ pc ∈ (runRowStart c i arg2 harg2 arg3 harg3 arg4 harg4 arg5 harg5 arg6 harg6 arg7 harg7 arg8 harg8 hc1 hc2 x0 x1 x2 xo5 xo6).1, y ∈ pc.1.set :=
  View.cover_of_tiledL (runRowStart c i arg2 harg2 arg3 harg3 arg4 harg4 arg5 harg5 arg6 harg6 arg7 harg7 arg8 harg8 hc1 hc2 x0 x1 x2 xo5 xo6).1 S1x1.size (by sl_kernel_rfl) y

/-- What this case leaves in output window 3's staging buffer: its stored pieces read back. -/
def outRow3 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) : Vec F S1x1 .f32 :=
  VO3.read (Elt F) (VO3.writes (Elt F) VO3.junk (runRowStart c i arg2 harg2 arg3 harg3 arg4 harg4 arg5 harg5 arg6 harg6 arg7 harg7 arg8 harg8 hc1 hc2 x0 x1 x2 xo5 xo6).1)

theorem coverRow4 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) (y : S1x1.Idx) :
    ∃ pc ∈ (runRowStart c i arg2 harg2 arg3 harg3 arg4 harg4 arg5 harg5 arg6 harg6 arg7 harg7 arg8 harg8 hc1 hc2 x0 x1 x2 xo5 xo6).2.1, y ∈ pc.1.set :=
  View.cover_of_tiledL (runRowStart c i arg2 harg2 arg3 harg3 arg4 harg4 arg5 harg5 arg6 harg6 arg7 harg7 arg8 harg8 hc1 hc2 x0 x1 x2 xo5 xo6).2.1 S1x1.size (by sl_kernel_rfl) y

/-- What this case leaves in output window 4's staging buffer: its stored pieces read back. -/
def outRow4 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) : Vec F S1x1 .f32 :=
  VO4.read (Elt F) (VO4.writes (Elt F) VO4.junk (runRowStart c i arg2 harg2 arg3 harg3 arg4 harg4 arg5 harg5 arg6 harg6 arg7 harg7 arg8 harg8 hc1 hc2 x0 x1 x2 xo5 xo6).2.1)

theorem coverRow5 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) (y : S1x512.Idx) :
    ∃ pc ∈ (runRowStart c i arg2 harg2 arg3 harg3 arg4 harg4 arg5 harg5 arg6 harg6 arg7 harg7 arg8 harg8 hc1 hc2 x0 x1 x2 xo5 xo6).2.2.1, y ∈ pc.1.set :=
  View.cover_of_tiledL (runRowStart c i arg2 harg2 arg3 harg3 arg4 harg4 arg5 harg5 arg6 harg6 arg7 harg7 arg8 harg8 hc1 hc2 x0 x1 x2 xo5 xo6).2.2.1 S1x512.size (by sl_kernel_rfl) y

/-- What this case leaves in output window 5's staging buffer: its stored pieces read back. -/
def outRow5 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) : Vec F S1x512 .f32 :=
  VO5.read (Elt F) (VO5.writes (Elt F) VO5.junk (runRowStart c i arg2 harg2 arg3 harg3 arg4 harg4 arg5 harg5 arg6 harg6 arg7 harg7 arg8 harg8 hc1 hc2 x0 x1 x2 xo5 xo6).2.2.1)

theorem coverRow6 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) (y : S1x512.Idx) :
    ∃ pc ∈ (runRowStart c i arg2 harg2 arg3 harg3 arg4 harg4 arg5 harg5 arg6 harg6 arg7 harg7 arg8 harg8 hc1 hc2 x0 x1 x2 xo5 xo6).2.2.2.1, y ∈ pc.1.set :=
  View.cover_of_tiledL (runRowStart c i arg2 harg2 arg3 harg3 arg4 harg4 arg5 harg5 arg6 harg6 arg7 harg7 arg8 harg8 hc1 hc2 x0 x1 x2 xo5 xo6).2.2.2.1 S1x512.size (by sl_kernel_rfl) y

/-- What this case leaves in output window 6's staging buffer: its stored pieces read back. -/
def outRow6 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) : Vec F S1x512 .f32 :=
  VO6.read (Elt F) (VO6.writes (Elt F) VO6.junk (runRowStart c i arg2 harg2 arg3 harg3 arg4 harg4 arg5 harg5 arg6 harg6 arg7 harg7 arg8 harg8 hc1 hc2 x0 x1 x2 xo5 xo6).2.2.2.1)

/-! ## What the outputs hold after each point -/

/-- The four outputs' staging contents: the two accumulators, the two row buffers. -/
abbrev Outs (F : FTy → Type) [FloatOps F] : Type := Vec F S1x1 .f32 × Vec F S1x1 .f32 × Vec F S1x512 .f32 × Vec F S1x512 .f32

/-- What the outputs' staging buffers hold after the body at position `n`: at the first point everything is stored
    afresh; at the first point of a later row of tiles the accumulators add to what the point before left and the
    rows are stored afresh; at any other point the accumulators add to what the point before left and the rows are
    what the point before left. -/
def outsAt (c : Dev nD) : (n : ℕ) → n < cfg0.N → Outs F
  | 0, hn =>
    (outFirst3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((condFirst_iff ⟨0, hn⟩).mpr rfl) ((condRow_iff ⟨0, hn⟩).mpr (Nat.zero_mod _)) (iblk m c 0 ⟨0, hn⟩) (iblk m c 1 ⟨0, hn⟩) (iblk m c 2 ⟨0, hn⟩),
     outFirst4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((condFirst_iff ⟨0, hn⟩).mpr rfl) ((condRow_iff ⟨0, hn⟩).mpr (Nat.zero_mod _)) (iblk m c 0 ⟨0, hn⟩) (iblk m c 1 ⟨0, hn⟩) (iblk m c 2 ⟨0, hn⟩),
     outFirst5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((condFirst_iff ⟨0, hn⟩).mpr rfl) ((condRow_iff ⟨0, hn⟩).mpr (Nat.zero_mod _)) (iblk m c 0 ⟨0, hn⟩) (iblk m c 1 ⟨0, hn⟩) (iblk m c 2 ⟨0, hn⟩),
     outFirst6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((condFirst_iff ⟨0, hn⟩).mpr rfl) ((condRow_iff ⟨0, hn⟩).mpr (Nat.zero_mod _)) (iblk m c 0 ⟨0, hn⟩) (iblk m c 1 ⟨0, hn⟩) (iblk m c 2 ⟨0, hn⟩))
  | n + 1, hn =>
    if h : (n + 1) % 16 = 0 then
      (outRow3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h1 => absurd ((condFirst_iff ⟨n + 1, hn⟩).mp h1) (Nat.succ_ne_zero n)) ((condRow_iff ⟨n + 1, hn⟩).mpr h) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1,
       outRow4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h1 => absurd ((condFirst_iff ⟨n + 1, hn⟩).mp h1) (Nat.succ_ne_zero n)) ((condRow_iff ⟨n + 1, hn⟩).mpr h) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1,
       outRow5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h1 => absurd ((condFirst_iff ⟨n + 1, hn⟩).mp h1) (Nat.succ_ne_zero n)) ((condRow_iff ⟨n + 1, hn⟩).mpr h) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1,
       outRow6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h1 => absurd ((condFirst_iff ⟨n + 1, hn⟩).mp h1) (Nat.succ_ne_zero n)) ((condRow_iff ⟨n + 1, hn⟩).mpr h) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1)
    else
      (outInner3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h1 => absurd ((condFirst_iff ⟨n + 1, hn⟩).mp h1) (Nat.succ_ne_zero n)) (fun h2 => h ((condRow_iff ⟨n + 1, hn⟩).mp h2)) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1,
       outInner4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h1 => absurd ((condFirst_iff ⟨n + 1, hn⟩).mp h1) (Nat.succ_ne_zero n)) (fun h2 => h ((condRow_iff ⟨n + 1, hn⟩).mp h2)) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1,
       (outsAt c n (Nat.lt_of_succ_lt hn)).2.2.1, (outsAt c n (Nat.lt_of_succ_lt hn)).2.2.2)

/-- `outsAt` at the first point. -/
theorem outsAt_first (c : Dev nD) (t : Fin cfg0.N) (h0 : t.val = 0) :
    outsAt m c t.val t.isLt =
      (outFirst3 c (grid0.coords t) (ms0 t) (hs0 t) (ms1 t) (hs1 t) (ms2 t) (hs2 t) (ms3 t) (hs3 t) (ms4 t) (hs4 t) (ms5 t) (hs5 t) (ms6 t) (hs6 t) ((condFirst_iff t).mpr h0) ((condRow_iff t).mpr (by omega)) (iblk m c 0 t) (iblk m c 1 t) (iblk m c 2 t),
       outFirst4 c (grid0.coords t) (ms0 t) (hs0 t) (ms1 t) (hs1 t) (ms2 t) (hs2 t) (ms3 t) (hs3 t) (ms4 t) (hs4 t) (ms5 t) (hs5 t) (ms6 t) (hs6 t) ((condFirst_iff t).mpr h0) ((condRow_iff t).mpr (by omega)) (iblk m c 0 t) (iblk m c 1 t) (iblk m c 2 t),
       outFirst5 c (grid0.coords t) (ms0 t) (hs0 t) (ms1 t) (hs1 t) (ms2 t) (hs2 t) (ms3 t) (hs3 t) (ms4 t) (hs4 t) (ms5 t) (hs5 t) (ms6 t) (hs6 t) ((condFirst_iff t).mpr h0) ((condRow_iff t).mpr (by omega)) (iblk m c 0 t) (iblk m c 1 t) (iblk m c 2 t),
       outFirst6 c (grid0.coords t) (ms0 t) (hs0 t) (ms1 t) (hs1 t) (ms2 t) (hs2 t) (ms3 t) (hs3 t) (ms4 t) (hs4 t) (ms5 t) (hs5 t) (ms6 t) (hs6 t) ((condFirst_iff t).mpr h0) ((condRow_iff t).mpr (by omega)) (iblk m c 0 t) (iblk m c 1 t) (iblk m c 2 t)) := by
  obtain ⟨n, hn⟩ := t
  cases n with
  | zero => exact rfl
  | succ n => exact absurd h0 (Nat.succ_ne_zero n)

/-- `outsAt` at the first point of a later row of tiles. -/
theorem outsAt_row (c : Dev nD) (t : Fin cfg0.N) (h0 : t.val ≠ 0) (h : t.val % 16 = 0) :
    outsAt m c t.val t.isLt =
      (outRow3 c (grid0.coords t) (ms0 t) (hs0 t) (ms1 t) (hs1 t) (ms2 t) (hs2 t) (ms3 t) (hs3 t) (ms4 t) (hs4 t) (ms5 t) (hs5 t) (ms6 t) (hs6 t) (fun h1 => h0 ((condFirst_iff t).mp h1)) ((condRow_iff t).mpr h) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1,
       outRow4 c (grid0.coords t) (ms0 t) (hs0 t) (ms1 t) (hs1 t) (ms2 t) (hs2 t) (ms3 t) (hs3 t) (ms4 t) (hs4 t) (ms5 t) (hs5 t) (ms6 t) (hs6 t) (fun h1 => h0 ((condFirst_iff t).mp h1)) ((condRow_iff t).mpr h) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1,
       outRow5 c (grid0.coords t) (ms0 t) (hs0 t) (ms1 t) (hs1 t) (ms2 t) (hs2 t) (ms3 t) (hs3 t) (ms4 t) (hs4 t) (ms5 t) (hs5 t) (ms6 t) (hs6 t) (fun h1 => h0 ((condFirst_iff t).mp h1)) ((condRow_iff t).mpr h) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1,
       outRow6 c (grid0.coords t) (ms0 t) (hs0 t) (ms1 t) (hs1 t) (ms2 t) (hs2 t) (ms3 t) (hs3 t) (ms4 t) (hs4 t) (ms5 t) (hs5 t) (ms6 t) (hs6 t) (fun h1 => h0 ((condFirst_iff t).mp h1)) ((condRow_iff t).mpr h) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1) := by
  obtain ⟨n, hn⟩ := t
  cases n with
  | zero => exact absurd rfl h0
  | succ n => exact (dif_pos h).trans rfl

/-- `outsAt` at a point that is not the first of its row of tiles. -/
theorem outsAt_inner (c : Dev nD) (t : Fin cfg0.N) (h : ¬t.val % 16 = 0) :
    outsAt m c t.val t.isLt =
      (outInner3 c (grid0.coords t) (ms0 t) (hs0 t) (ms1 t) (hs1 t) (ms2 t) (hs2 t) (ms3 t) (hs3 t) (ms4 t) (hs4 t) (ms5 t) (hs5 t) (ms6 t) (hs6 t) (fun h1 => h (by rw [(condFirst_iff t).mp h1])) (fun h2 => h ((condRow_iff t).mp h2)) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1,
       outInner4 c (grid0.coords t) (ms0 t) (hs0 t) (ms1 t) (hs1 t) (ms2 t) (hs2 t) (ms3 t) (hs3 t) (ms4 t) (hs4 t) (ms5 t) (hs5 t) (ms6 t) (hs6 t) (fun h1 => h (by rw [(condFirst_iff t).mp h1])) (fun h2 => h ((condRow_iff t).mp h2)) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1,
       (outsAt m c (t.val - 1) (Nat.lt_of_le_of_lt (Nat.sub_le _ _) t.isLt)).2.2.1, (outsAt m c (t.val - 1) (Nat.lt_of_le_of_lt (Nat.sub_le _ _) t.isLt)).2.2.2) := by
  obtain ⟨n, hn⟩ := t
  cases n with
  | zero => exact absurd (Nat.zero_mod _) h
  | succ n => exact (dif_neg h).trans rfl

/-! ## The pipeline's proof data -/

/-- The proof data of the one pipeline on core `c`: the arrays as the region finds them; after the body at point
    `t` each input's buffer at its block and the outputs' at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
    | ⟨4, _⟩ => (outsAt m c t.val t.isLt).2.1
    | ⟨5, _⟩ => (outsAt m c t.val t.isLt).2.2.1
    | ⟨6, _⟩ => (outsAt m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]
theorem after4 (c : Dev nD) (t : Fin cfg0.N) : (dats m 0 c).after 4 t = (outsAt m c t.val t.isLt).2.1 := by dsimp only [dats]
theorem after5 (c : Dev nD) (t : Fin cfg0.N) : (dats m 0 c).after 5 t = (outsAt m c t.val t.isLt).2.2.1 := by dsimp only [dats]
theorem after6 (c : Dev nD) (t : Fin cfg0.N) : (dats m 0 c).after 6 t = (outsAt m c t.val t.isLt).2.2.2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- After the first point an accumulator's staging buffer holds what the body left at the point before: it is written
    back only after the last point, and the window is live and whole at every point. -/
theorem before3_acc (c : Dev nD) (t : Fin cfg0.N) (h0 : t.val ≠ 0) (d) :
    (dats m 0 c).before 3 t d = (outsAt m c (t.val - 1) (Nat.lt_of_le_of_lt (Nat.sub_le _ _) t.isLt)).1 := by
  have hN : t.val < 128 := lt_of_lt_of_eq t.isLt (show cfg0.N = 128 from N_0)
  rw [Dat.before_out_kept _ 3 rfl t h0 (Bool.eq_false_iff.mpr fun h => by have := (flush0_3 _).mp h; dsimp only at this; omega)
    (fun _ => rfl) (fun _ _ => rfl)]
  dsimp only [dats]
theorem before4_acc (c : Dev nD) (t : Fin cfg0.N) (h0 : t.val ≠ 0) (d) :
    (dats m 0 c).before 4 t d = (outsAt m c (t.val - 1) (Nat.lt_of_le_of_lt (Nat.sub_le _ _) t.isLt)).2.1 := by
  have hN : t.val < 128 := lt_of_lt_of_eq t.isLt (show cfg0.N = 128 from N_0)
  rw [Dat.before_out_kept _ 4 rfl t h0 (Bool.eq_false_iff.mpr fun h => by have := (flush0_4 _).mp h; dsimp only at this; omega)
    (fun _ => rfl) (fun _ _ => rfl)]
  dsimp only [dats]

/-- The row windows are idle exactly at the points that are not the first of their row of tiles. -/
theorem idle5_iff : ∀ t : Fin cfg0.N, cfg0.idle 5 (cfg0.grid.coords t) = true ↔ t.val % 16 ≠ 0 :=
  (by decide +kernel : ∀ t : Fin grid0.N, cfg0.idle 5 (cfg0.grid.coords t) = true ↔ t.val % 16 ≠ 0)
theorem idle6_iff : ∀ t : Fin cfg0.N, cfg0.idle 6 (cfg0.grid.coords t) = true ↔ t.val % 16 ≠ 0 :=
  (by decide +kernel : ∀ t : Fin grid0.N, cfg0.idle 6 (cfg0.grid.coords t) = true ↔ t.val % 16 ≠ 0)

/-! ## The row windows through their idle points -/

/-- An uncut window's staging buffer keeps all of what the body left. -/
theorem kept_eq_after (c : Dev nD) (w : Fin cfg0.W) (hclip : ∀ (i : cfg0.grid.Coords) a, (cfg0.win w).clip i a = none) (t : Fin cfg0.N) (d) :
    (dats m 0 c).kept w t d = (dats m 0 c).after w t := by
  unfold Dat.kept
  rw [Pipeline.fill_of_clip_none w _ (hclip _) d ((dats m 0 c).after w t), Window.fill_cut]

/-- At a point that is not the first of its row of tiles, the first row buffer holds what the point before left:
    nothing was written back in between, and the point before either stored it (the first of the row) or found
    it so itself. -/
theorem before5_idle_aux (c : Dev nD) (d) : ∀ (n : ℕ) (hn : n < cfg0.N), ¬n % 16 = 0 →
    (dats m 0 c).before 5 ⟨n, hn⟩ d = (outsAt m c (n - 1) (Nat.lt_of_le_of_lt (Nat.sub_le _ _) hn)).2.2.1 := by
  intro n
  induction n using Nat.strong_induction_on with
  | _ n ih =>
    intro hn h
    have hN : n < 128 := lt_of_lt_of_eq hn (show cfg0.N = 128 from N_0)
    have h0 : n ≠ 0 := fun e => h (by rw [e])
    have hfl : (cfg0.win 5).flush ⟨n - 1, Nat.lt_of_le_of_lt (Nat.sub_le _ _) hn⟩ = false :=
      Bool.eq_false_iff.mpr fun hf => by have := (flush0_5 _).mp hf; dsimp only at this; omega
    rw [Dat.before_of_pos _ 5 ⟨n, hn⟩ h0 (Window.fetch_out _ rfl _), hfl, if_neg Bool.false_ne_true]
    unfold Dat.left
    by_cases h' : (n - 1) % 16 = 0
    · have hi : cfg0.idle 5 (cfg0.grid.coords ⟨n - 1, Nat.lt_of_le_of_lt (Nat.sub_le _ _) hn⟩) = false :=
        Bool.eq_false_iff.mpr fun hi => (idle5_iff _).mp hi h'
      rw [hi]; dsimp only
      rw [kept_eq_after m c 5 (fun _ _ => rfl)]
      dsimp only [dats]
    · have hi : cfg0.idle 5 (cfg0.grid.coords ⟨n - 1, Nat.lt_of_le_of_lt (Nat.sub_le _ _) hn⟩) = true := (idle5_iff _).mpr h'
      rw [hi]; dsimp only
      rw [ih (n - 1) (by omega) (Nat.lt_of_le_of_lt (Nat.sub_le _ _) hn) h']
      exact (congrArg (fun o : Outs F => o.2.2.1) (outsAt_inner m c ⟨n - 1, Nat.lt_of_le_of_lt (Nat.sub_le _ _) hn⟩ h')).symm

theorem before6_idle_aux (c : Dev nD) (d) : ∀ (n : ℕ) (hn : n < cfg0.N), ¬n % 16 = 0 →
    (dats m 0 c).before 6 ⟨n, hn⟩ d = (outsAt m c (n - 1) (Nat.lt_of_le_of_lt (Nat.sub_le _ _) hn)).2.2.2 := by
  intro n
  induction n using Nat.strong_induction_on with
  | _ n ih =>
    intro hn h
    have hN : n < 128 := lt_of_lt_of_eq hn (show cfg0.N = 128 from N_0)
    have h0 : n ≠ 0 := fun e => h (by rw [e])
    have hfl : (cfg0.win 6).flush ⟨n - 1, Nat.lt_of_le_of_lt (Nat.sub_le _ _) hn⟩ = false :=
      Bool.eq_false_iff.mpr fun hf => by have := (flush0_6 _).mp hf; dsimp only at this; omega
    rw [Dat.before_of_pos _ 6 ⟨n, hn⟩ h0 (Window.fetch_out _ rfl _), hfl, if_neg Bool.false_ne_true]
    unfold Dat.left
    by_cases h' : (n - 1) % 16 = 0
    · have hi : cfg0.idle 6 (cfg0.grid.coords ⟨n - 1, Nat.lt_of_le_of_lt (Nat.sub_le _ _) hn⟩) = false :=
        Bool.eq_false_iff.mpr fun hi => (idle6_iff _).mp hi h'
      rw [hi]; dsimp only
      rw [kept_eq_after m c 6 (fun _ _ => rfl)]
      dsimp only [dats]
    · have hi : cfg0.idle 6 (cfg0.grid.coords ⟨n - 1, Nat.lt_of_le_of_lt (Nat.sub_le _ _) hn⟩) = true := (idle6_iff _).mpr h'
      rw [hi]; dsimp only
      rw [ih (n - 1) (by omega) (Nat.lt_of_le_of_lt (Nat.sub_le _ _) hn) h']
      exact (congrArg (fun o : Outs F => o.2.2.2) (outsAt_inner m c ⟨n - 1, Nat.lt_of_le_of_lt (Nat.sub_le _ _) hn⟩ h')).symm

theorem before5_idle (c : Dev nD) (t : Fin cfg0.N) (h : ¬t.val % 16 = 0) (d) :
    (dats m 0 c).before 5 t d = (outsAt m c (t.val - 1) (Nat.lt_of_le_of_lt (Nat.sub_le _ _) t.isLt)).2.2.1 := before5_idle_aux m c d t.val t.isLt h
theorem before6_idle (c : Dev nD) (t : Fin cfg0.N) (h : ¬t.val % 16 = 0) (d) :
    (dats m 0 c).before 6 t d = (outsAt m c (t.val - 1) (Nat.lt_of_le_of_lt (Nat.sub_le _ _) t.isLt)).2.2.2 := before6_idle_aux m c d t.val t.isLt h

/-- At a point idle for it, a row buffer handed to the body at what it held is handed back as the obligation asks:
    as it was found where the point does not write it back, and where it does, at what the proof data names, which
    is the same contents. -/
theorem keep5 (c : Dev nD) (t : Fin cfg0.N) (h : ¬t.val % 16 = 0) (d) :
    owns (c : Thread nD τ) (ms5 t) fullShare ((dats m 0 c).before 5 t d) ⊢ ((dats m 0 c).leavesExact 5 t : sProp 𝕄) := by
  have hi : cfg0.idle 5 (cfg0.grid.coords t) = true := (idle5_iff t).mpr h
  by_cases hf : (cfg0.win 5).flush t = true
  · have e : (dats m 0 c).leavesExact 5 t = owns (c : Thread nD τ) (ms5 t) fullShare ((dats m 0 c).after 5 t) := by
      unfold Dat.leavesExact; rw [hi, hf]
    rw [e, before5_idle m c t h d, after5, outsAt_inner m c t h]
  · rw [Dat.leavesExact_idle _ 5 t hi (Bool.eq_false_iff.mpr hf)]
    iintro H; iexists d; iexact H
theorem keep6 (c : Dev nD) (t : Fin cfg0.N) (h : ¬t.val % 16 = 0) (d) :
    owns (c : Thread nD τ) (ms6 t) fullShare ((dats m 0 c).before 6 t d) ⊢ ((dats m 0 c).leavesExact 6 t : sProp 𝕄) := by
  have hi : cfg0.idle 6 (cfg0.grid.coords t) = true := (idle6_iff t).mpr h
  by_cases hf : (cfg0.win 6).flush t = true
  · have e : (dats m 0 c).leavesExact 6 t = owns (c : Thread nD τ) (ms6 t) fullShare ((dats m 0 c).after 6 t) := by
      unfold Dat.leavesExact; rw [hi, hf]
    rw [e, before6_idle m c t h d, after6, outsAt_inner m c t h]
  · rw [Dat.leavesExact_idle _ 6 t hi (Bool.eq_false_iff.mpr hf)]
    iintro H; iexists d; iexact H

/-- At a point live for it, what the obligation asks of a row buffer is the contents the proof data names. -/
theorem leaves_live5 (c : Dev nD) (t : Fin cfg0.N) (h : t.val % 16 = 0) :
    ((dats m 0 c).leavesExact 5 t : sProp 𝕄) = owns (c : Thread nD τ) (ms5 t) fullShare ((dats m 0 c).after 5 t) := by
  have hi : cfg0.idle 5 (cfg0.grid.coords t) = false := Bool.eq_false_iff.mpr fun hi => (idle5_iff t).mp hi h
  unfold Dat.leavesExact; rw [hi]
theorem leaves_live6 (c : Dev nD) (t : Fin cfg0.N) (h : t.val % 16 = 0) :
    ((dats m 0 c).leavesExact 6 t : sProp 𝕄) = owns (c : Thread nD τ) (ms6 t) fullShare ((dats m 0 c).after 6 t) := by
  have hi : cfg0.idle 6 (cfg0.grid.coords t) = false := Bool.eq_false_iff.mpr fun hi => (idle6_iff t).mp hi h
  unfold Dat.leavesExact; rw [hi]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (dats m 0 c).leavesExact 5 t
    ∗ (dats m 0 c).leavesExact 6 t)

set_option maxHeartbeats 1600000 in
/-- The body at any point: the inputs' memrefs hold their blocks; the closed forms say which case the point is in; an
    accumulator holds what the point before left; so that case's run applies. At a point idle for the row buffers
    they pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4]
  have hN : t.val < 128 := lt_of_lt_of_eq t.isLt (show cfg0.N = 128 from N_0)
  by_cases h : t.val % 16 = 0
  · rw [leaves_live5 m c t h, leaves_live6 m c t h, after5, after6]
    by_cases h0 : t.val = 0
    · rw [outsAt_first m c t h0]; dsimp only
      unfold outFirst3 outFirst4 outFirst5 outFirst6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ ((condFirst_iff t).mpr h0) ((condRow_iff t).mpr h) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      iintro ⟨H0, H1, H2, ⟨%e3, H3⟩, ⟨%e4, H4⟩, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverFirst3 c _ _ _ _ _ _ _ _ _ _ _ _ _ _ _ _ _ _ _ _)
      isplitl [H4]
      · unfold owns; iexists _; isplitr
        swap; · iexact H4
        ipureintro; exact View.read_writes_of_cover _ _ _ _ _ (coverFirst4 c _ _ _ _ _ _ _ _ _ _ _ _ _ _ _ _ _ _ _ _)
      isplitl [H5]
      · unfold owns; iexists _; isplitr
        swap; · iexact H5
        ipureintro; exact View.read_writes_of_cover _ _ _ _ _ (coverFirst5 c _ _ _ _ _ _ _ _ _ _ _ _ _ _ _ _ _ _ _ _)
      unfold owns; iexists _; isplitr
      swap; · iexact H6
      ipureintro; exact View.read_writes_of_cover _ _ _ _ _ (coverFirst6 c _ _ _ _ _ _ _ _ _ _ _ _ _ _ _ _ _ _ _ _)
    · simp only [before3_acc m c t h0, before4_acc m c t h0]
      rw [outsAt_row m c t h0 h]; dsimp only
      unfold outRow3 outRow4 outRow5 outRow6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runRowStart c (grid0.coords t) _ _ _ _ _ _ _ _ _ _ _ _ _ _ (fun h1 => h0 ((condFirst_iff t).mp h1)) ((condRow_iff t).mpr h) (iblk m c 0 t) (iblk m c 1 t) (iblk m c 2 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iintro ⟨H0, H1, H2, ⟨%e3, H3⟩, ⟨%e4, H4⟩, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverRow3 c _ _ _ _ _ _ _ _ _ _ _ _ _ _ _ _ _ _ _ _ _ _)
      isplitl [H4]
      · unfold owns; iexists _; isplitr
        swap; · iexact H4
        ipureintro; exact View.read_writes_of_cover _ _ _ _ _ (coverRow4 c _ _ _ _ _ _ _ _ _ _ _ _ _ _ _ _ _ _ _ _ _ _)
      isplitl [H5]
      · unfold owns; iexists _; isplitr
        swap; · iexact H5
        ipureintro; exact View.read_writes_of_cover _ _ _ _ _ (coverRow5 c _ _ _ _ _ _ _ _ _ _ _ _ _ _ _ _ _ _ _ _ _ _)
      unfold owns; iexists _; isplitr
      swap; · iexact H6
      ipureintro; exact View.read_writes_of_cover _ _ _ _ _ (coverRow6 c _ _ _ _ _ _ _ _ _ _ _ _ _ _ _ _ _ _ _ _ _ _)
  · have h0 : t.val ≠ 0 := fun e => h (by rw [e])
    simp only [before3_acc m c t h0, before4_acc m c t h0]
    rw [outsAt_inner m c t h]; dsimp only
    unfold outInner3 outInner4
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runInner c (grid0.coords t) _ _ _ _ _ _ _ _ _ _ _ _ _ _ (fun h1 => h (by rw [(condFirst_iff t).mp h1])) (fun h2 => h ((condRow_iff t).mp h2)) (iblk m c 0 t) (iblk m c 1 t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverInner3 c _ _ _ _ _ _ _ _ _ _ _ _ _ _ _ _ _ _ _ _ _ _)
    isplitl [H4]
    · unfold owns; iexists _; isplitr
      swap; · iexact H4
      ipureintro; exact View.read_writes_of_cover _ _ _ _ _ (coverInner4 c _ _ _ _ _ _ _ _ _ _ _ _ _ _ _ _ _ _ _ _ _ _)
    isplitl [H5]
    · iapply (keep5 m c t h d5); iexact H5
    iapply (keep6 m c t h d6); iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the TensorCores terminates, and
    every final state has every array of the pipeline at what the proof data gives and every other unscoped buffer as
    the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.IdealShared.lean ====
/-
  What the three control cases of the kernel body share.

  The body branches twice on the grid point (j, i): at the very first point (j = 0 and i = 0) it clears the two
  running sums before adding this tile's totals to them, and at the first point of each row of tiles (i = 0) it
  stores row 0 of the two similarity tiles. Over the 128 points, numbered j * 16 + i, the first condition holds at
  point 0 only and the second at the multiples of 16.
-/
import proofs.«112217_j43198781063230_1_alg».proof.Proof.Gen.KernelIdeal.Frame
import proofs.«112217_j43198781063230_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point": the condition under which the running sums are cleared. -/
abbrev condFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- "This is the first point of a row of tiles" (i = 0): the condition under which row 0 of the tiles is stored. -/
abbrev condRow (i : grid0.Coords) : Prop := k0_cond2 i = 1#1

/-- The first condition holds at point 0 only. -/
theorem condFirst_iff : ∀ t : Fin cfg0.N, condFirst (grid0.coords t) ↔ t.val = 0 :=
  (by decide +kernel : ∀ t : Fin grid0.N, condFirst (grid0.coords t) ↔ t.val = 0)

/-- The second condition holds at the multiples of 16. -/
theorem condRow_iff : ∀ t : Fin cfg0.N, condRow (grid0.coords t) ↔ t.val % 16 = 0 :=
  (by decide +kernel : ∀ t : Fin grid0.N, condRow (grid0.coords t) ↔ t.val % 16 = 0)

/-- Each window's current staging memref at point `t`, and that it is a whole buffer. -/
abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)

/-- One staging buffer of each output window, through which the output's contents are stated. -/
abbrev VO3 : View sig .tc .vmem S1x1 .f32 := (Memref.whole cc0_stg3_0 : Memref sig .tc .vmem S1x1 .f32).view
abbrev VO4 : View sig .tc .vmem S1x1 .f32 := (Memref.whole cc0_stg4_0 : Memref sig .tc .vmem S1x1 .f32).view
abbrev VO5 : View sig .tc .vmem S1x512 .f32 := (Memref.whole cc0_stg5_0 : Memref sig .tc .vmem S1x512 .f32).view
abbrev VO6 : View sig .tc .vmem S1x512 .f32 := (Memref.whole cc0_stg6_0 : Memref sig .tc .vmem S1x512 .f32).view

end Cert.KernelIdeal.Hand

end
-- ==== Proof.IdealRunA.lean ====
/-
  The kernel body at the first grid point: both branches are taken. The two running sums are cleared and then
  receive this tile's totals, and row 0 of each similarity tile is stored.
-/
import proofs.«112217_j43198781063230_1_alg».proof.Proof.IdealShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref in this case, as lists of stored pieces (last first),
    with the proof that on whole staging memrefs holding the three input blocks `x0`, `x1`, `x2` the body runs to its
    continuation, the inputs as they were and each output's buffer with those pieces written. -/
noncomputable def runFirst (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i)
    (x0 : Vec F S256x1024 .f32) (x1 : Vec F S512x1024 .f32) (x2 : Vec F S512x1024 .f32) :
    Σ' (L5 : List (View.Piece (Elt F) S1x1 .f32)), Σ' (L6 : List (View.Piece (Elt F) S1x1 .f32)), Σ' (L7 : List (View.Piece (Elt F) S1x512 .f32)), { L8 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [H6]; · iexists _; iexact H6
    isplitl [H7]; · iexists _; iexact H7
    iexists _; iexact H8

end Cert.KernelIdeal.Hand

end
-- ==== Proof.IdealRunB.lean ====
/-
  The kernel body at a point that is not the first of its row of tiles (i ≠ 0): neither branch is taken. The two
  running sums, found at `xo5` and `xo6`, receive this tile's totals; the two row buffers are not touched.
-/
import proofs.«112217_j43198781063230_1_alg».proof.Proof.IdealRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref in this case, as lists of stored pieces (last first),
    with the proof that on whole staging memrefs holding the three input blocks `x0`, `x1`, `x2` the body runs to its
    continuation, the inputs as they were and each output's buffer with those pieces written. -/
noncomputable def runInner (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : ¬condRow i)
    (x0 : Vec F S256x1024 .f32) (x1 : Vec F S512x1024 .f32) (x2 : Vec F S512x1024 .f32) (xo5 xo6 : Vec F S1x1 .f32) :
    Σ' (L5 : List (View.Piece (Elt F) S1x1 .f32)), { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo5 ∗ owns (c : Thread nD τ) arg6 fullShare xo6
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf5; obtain rfl := harg6.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    iexists _; iexact H6

end Cert.KernelIdeal.Hand

end
-- ==== Proof.IdealRunC.lean ====
/-
  The kernel body at the first point of a later row of tiles (i = 0, j ≠ 0): only the second branch is taken. The two
  running sums, found at `xo5` and `xo6`, receive this tile's totals, and row 0 of each similarity tile is stored.
-/
import proofs.«112217_j43198781063230_1_alg».proof.Proof.IdealRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref in this case, as lists of stored pieces (last first),
    with the proof that on whole staging memrefs holding the three input blocks `x0`, `x1`, `x2` the body runs to its
    continuation, the inputs as they were and each output's buffer with those pieces written. -/
noncomputable def runRowStart (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i)
    (x0 : Vec F S256x1024 .f32) (x1 : Vec F S512x1024 .f32) (x2 : Vec F S512x1024 .f32) (xo5 xo6 : Vec F S1x1 .f32) :
    Σ' (L5 : List (View.Piece (Elt F) S1x1 .f32)), Σ' (L6 : List (View.Piece (Elt F) S1x1 .f32)), Σ' (L7 : List (View.Piece (Elt F) S1x512 .f32)), { L8 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo5 ∗ owns (c : Thread nD τ) arg6 fullShare xo6 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf5; obtain rfl := harg6.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [H6]; · iexists _; iexact H6
    isplitl [H7]; · iexists _; iexact H7
    iexists _; iexact H8

end Cert.KernelIdeal.Hand

end
-- ==== Proof.IdealData.lean ====
/-
  The kernel's frame: what the four outputs' staging buffers hold after each grid point, the body's triple at a
  generic point, and the run of the whole program.

  After point t = j * 16 + i the two 1 × 1 accumulators hold the totals of all tiles visited so far (cleared at the
  first point, carried from point to point, written back once after the last point). The two 1 × 512 row buffers
  are stored at the first point of each row of tiles (i = 0), are then left alone for the fifteen points that
  follow, and are written back after the last of them: so through those fifteen points, write-back included, they
  hold what the first point of the row stored.
-/
import proofs.«112217_j43198781063230_1_alg».proof.Proof.IdealRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each output it stores into -/

theorem coverFirst3 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) (y : S1x1.Idx) :
    ∃ pc ∈ (runFirst c i arg2 harg2 arg3 harg3 arg4 harg4 arg5 harg5 arg6 harg6 arg7 harg7 arg8 harg8 hc1 hc2 x0 x1 x2).1, y ∈ pc.1.set :=
  View.cover_of_tiledL (runFirst c i arg2 harg2 arg3 harg3 arg4 harg4 arg5 harg5 arg6 harg6 arg7 harg7 arg8 harg8 hc1 hc2 x0 x1 x2).1 S1x1.size (by sl_kernel_rfl) y

/-- What this case leaves in output window 3's staging buffer: its stored pieces read back. -/
def outFirst3 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) : Vec F S1x1 .f32 :=
  VO3.read (Elt F) (VO3.writes (Elt F) VO3.junk (runFirst c i arg2 harg2 arg3 harg3 arg4 harg4 arg5 harg5 arg6 harg6 arg7 harg7 arg8 harg8 hc1 hc2 x0 x1 x2).1)

theorem coverFirst4 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) (y : S1x1.Idx) :
    ∃ pc ∈ (runFirst c i arg2 harg2 arg3 harg3 arg4 harg4 arg5 harg5 arg6 harg6 arg7 harg7 arg8 harg8 hc1 hc2 x0 x1 x2).2.1, y ∈ pc.1.set :=
  View.cover_of_tiledL (runFirst c i arg2 harg2 arg3 harg3 arg4 harg4 arg5 harg5 arg6 harg6 arg7 harg7 arg8 harg8 hc1 hc2 x0 x1 x2).2.1 S1x1.size (by sl_kernel_rfl) y

/-- What this case leaves in output window 4's staging buffer: its stored pieces read back. -/
def outFirst4 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) : Vec F S1x1 .f32 :=
  VO4.read (Elt F) (VO4.writes (Elt F) VO4.junk (runFirst c i arg2 harg2 arg3 harg3 arg4 harg4 arg5 harg5 arg6 harg6 arg7 harg7 arg8 harg8 hc1 hc2 x0 x1 x2).2.1)

theorem coverFirst5 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) (y : S1x512.Idx) :
    ∃ pc ∈ (runFirst c i arg2 harg2 arg3 harg3 arg4 harg4 arg5 harg5 arg6 harg6 arg7 harg7 arg8 harg8 hc1 hc2 x0 x1 x2).2.2.1, y ∈ pc.1.set :=
  View.cover_of_tiledL (runFirst c i arg2 harg2 arg3 harg3 arg4 harg4 arg5 harg5 arg6 harg6 arg7 harg7 arg8 harg8 hc1 hc2 x0 x1 x2).2.2.1 S1x512.size (by sl_kernel_rfl) y

/-- What this case leaves in output window 5's staging buffer: its stored pieces read back. -/
def outFirst5 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) : Vec F S1x512 .f32 :=
  VO5.read (Elt F) (VO5.writes (Elt F) VO5.junk (runFirst c i arg2 harg2 arg3 harg3 arg4 harg4 arg5 harg5 arg6 harg6 arg7 harg7 arg8 harg8 hc1 hc2 x0 x1 x2).2.2.1)

theorem coverFirst6 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) (y : S1x512.Idx) :
    ∃ pc ∈ (runFirst c i arg2 harg2 arg3 harg3 arg4 harg4 arg5 harg5 arg6 harg6 arg7 harg7 arg8 harg8 hc1 hc2 x0 x1 x2).2.2.2.1, y ∈ pc.1.set :=
  View.cover_of_tiledL (runFirst c i arg2 harg2 arg3 harg3 arg4 harg4 arg5 harg5 arg6 harg6 arg7 harg7 arg8 harg8 hc1 hc2 x0 x1 x2).2.2.2.1 S1x512.size (by sl_kernel_rfl) y

/-- What this case leaves in output window 6's staging buffer: its stored pieces read back. -/
def outFirst6 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) : Vec F S1x512 .f32 :=
  VO6.read (Elt F) (VO6.writes (Elt F) VO6.junk (runFirst c i arg2 harg2 arg3 harg3 arg4 harg4 arg5 harg5 arg6 harg6 arg7 harg7 arg8 harg8 hc1 hc2 x0 x1 x2).2.2.2.1)

theorem coverInner3 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : ¬condRow i) (x0 : Vec F S256x1024 .f32) (x1 : Vec F S512x1024 .f32) (x2 : Vec F S512x1024 .f32) (xo5 xo6 : Vec F S1x1 .f32) (y : S1x1.Idx) :
    ∃ pc ∈ (runInner c i arg2 harg2 arg3 harg3 arg4 harg4 arg5 harg5 arg6 harg6 arg7 harg7 arg8 harg8 hc1 hc2 x0 x1 x2 xo5 xo6).1, y ∈ pc.1.set :=
  View.cover_of_tiledL (runInner c i arg2 harg2 arg3 harg3 arg4 harg4 arg5 harg5 arg6 harg6 arg7 harg7 arg8 harg8 hc1 hc2 x0 x1 x2 xo5 xo6).1 S1x1.size (by sl_kernel_rfl) y

/-- What this case leaves in output window 3's staging buffer: its stored pieces read back. -/
def outInner3 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : ¬condRow i) (x0 : Vec F S256x1024 .f32) (x1 : Vec F S512x1024 .f32) (x2 : Vec F S512x1024 .f32) (xo5 xo6 : Vec F S1x1 .f32) : Vec F S1x1 .f32 :=
  VO3.read (Elt F) (VO3.writes (Elt F) VO3.junk (runInner c i arg2 harg2 arg3 harg3 arg4 harg4 arg5 harg5 arg6 harg6 arg7 harg7 arg8 harg8 hc1 hc2 x0 x1 x2 xo5 xo6).1)

theorem coverInner4 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : ¬condRow i) (x0 : Vec F S256x1024 .f32) (x1 : Vec F S512x1024 .f32) (x2 : Vec F S512x1024 .f32) (xo5 xo6 : Vec F S1x1 .f32) (y : S1x1.Idx) :
    ∃ pc ∈ (runInner c i arg2 harg2 arg3 harg3 arg4 harg4 arg5 harg5 arg6 harg6 arg7 harg7 arg8 harg8 hc1 hc2 x0 x1 x2 xo5 xo6).2.1, y ∈ pc.1.set :=
  View.cover_of_tiledL (runInner c i arg2 harg2 arg3 harg3 arg4 harg4 arg5 harg5 arg6 harg6 arg7 harg7 arg8 harg8 hc1 hc2 x0 x1 x2 xo5 xo6).2.1 S1x1.size (by sl_kernel_rfl) y

/-- What this case leaves in output window 4's staging buffer: its stored pieces read back. -/
def outInner4 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : ¬condRow i) (x0 : Vec F S256x1024 .f32) (x1 : Vec F S512x1024 .f32) (x2 : Vec F S512x1024 .f32) (xo5 xo6 : Vec F S1x1 .f32) : Vec F S1x1 .f32 :=
  VO4.read (Elt F) (VO4.writes (Elt F) VO4.junk (runInner c i arg2 harg2 arg3 harg3 arg4 harg4 arg5 harg5 arg6 harg6 arg7 harg7 arg8 harg8 hc1 hc2 x0 x1 x2 xo5 xo6).2.1)

theorem coverRow3 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) (y : S1x1.Idx) :
    ∃ pc ∈ (runRowStart c i arg2 harg2 arg3 harg3 arg4 harg4 arg5 harg5 arg6 harg6 arg7 harg7 arg8 harg8 hc1 hc2 x0 x1 x2 xo5 xo6).1, y ∈ pc.1.set :=
  View.cover_of_tiledL (runRowStart c i arg2 harg2 arg3 harg3 arg4 harg4 arg5 harg5 arg6 harg6 arg7 harg7 arg8 harg8 hc1 hc2 x0 x1 x2 xo5 xo6).1 S1x1.size (by sl_kernel_rfl) y

/-- What this case leaves in output window 3's staging buffer: its stored pieces read back. -/
def outRow3 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) : Vec F S1x1 .f32 :=
  VO3.read (Elt F) (VO3.writes (Elt F) VO3.junk (runRowStart c i arg2 harg2 arg3 harg3 arg4 harg4 arg5 harg5 arg6 harg6 arg7 harg7 arg8 harg8 hc1 hc2 x0 x1 x2 xo5 xo6).1)

theorem coverRow4 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) (y : S1x1.Idx) :
    ∃ pc ∈ (runRowStart c i arg2 harg2 arg3 harg3 arg4 harg4 arg5 harg5 arg6 harg6 arg7 harg7 arg8 harg8 hc1 hc2 x0 x1 x2 xo5 xo6).2.1, y ∈ pc.1.set :=
  View.cover_of_tiledL (runRowStart c i arg2 harg2 arg3 harg3 arg4 harg4 arg5 harg5 arg6 harg6 arg7 harg7 arg8 harg8 hc1 hc2 x0 x1 x2 xo5 xo6).2.1 S1x1.size (by sl_kernel_rfl) y

/-- What this case leaves in output window 4's staging buffer: its stored pieces read back. -/
def outRow4 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) : Vec F S1x1 .f32 :=
  VO4.read (Elt F) (VO4.writes (Elt F) VO4.junk (runRowStart c i arg2 harg2 arg3 harg3 arg4 harg4 arg5 harg5 arg6 harg6 arg7 harg7 arg8 harg8 hc1 hc2 x0 x1 x2 xo5 xo6).2.1)

theorem coverRow5 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) (y : S1x512.Idx) :
    ∃ pc ∈ (runRowStart c i arg2 harg2 arg3 harg3 arg4 harg4 arg5 harg5 arg6 harg6 arg7 harg7 arg8 harg8 hc1 hc2 x0 x1 x2 xo5 xo6).2.2.1, y ∈ pc.1.set :=
  View.cover_of_tiledL (runRowStart c i arg2 harg2 arg3 harg3 arg4 harg4 arg5 harg5 arg6 harg6 arg7 harg7 arg8 harg8 hc1 hc2 x0 x1 x2 xo5 xo6).2.2.1 S1x512.size (by sl_kernel_rfl) y

/-- What this case leaves in output window 5's staging buffer: its stored pieces read back. -/
def outRow5 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) : Vec F S1x512 .f32 :=
  VO5.read (Elt F) (VO5.writes (Elt F) VO5.junk (runRowStart c i arg2 harg2 arg3 harg3 arg4 harg4 arg5 harg5 arg6 harg6 arg7 harg7 arg8 harg8 hc1 hc2 x0 x1 x2 xo5 xo6).2.2.1)

theorem coverRow6 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) (y : S1x512.Idx) :
    ∃ pc ∈ (runRowStart c i arg2 harg2 arg3 harg3 arg4 harg4 arg5 harg5 arg6 harg6 arg7 harg7 arg8 harg8 hc1 hc2 x0 x1 x2 xo5 xo6).2.2.2.1, y ∈ pc.1.set :=
  View.cover_of_tiledL (runRowStart c i arg2 harg2 arg3 harg3 arg4 harg4 arg5 harg5 arg6 harg6 arg7 harg7 arg8 harg8 hc1 hc2 x0 x1 x2 xo5 xo6).2.2.2.1 S1x512.size (by sl_kernel_rfl) y

/-- What this case leaves in output window 6's staging buffer: its stored pieces read back. -/
def outRow6 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) : Vec F S1x512 .f32 :=
  VO6.read (Elt F) (VO6.writes (Elt F) VO6.junk (runRowStart c i arg2 harg2 arg3 harg3 arg4 harg4 arg5 harg5 arg6 harg6 arg7 harg7 arg8 harg8 hc1 hc2 x0 x1 x2 xo5 xo6).2.2.2.1)

/-! ## What the outputs hold after each point -/

/-- The four outputs' staging contents: the two accumulators, the two row buffers. -/
abbrev Outs (F : FTy → Type) [FloatOps F] : Type := Vec F S1x1 .f32 × Vec F S1x1 .f32 × Vec F S1x512 .f32 × Vec F S1x512 .f32

/-- What the outputs' staging buffers hold after the body at position `n`: at the first point everything is stored
    afresh; at the first point of a later row of tiles the accumulators add to what the point before left and the
    rows are stored afresh; at any other point the accumulators add to what the point before left and the rows are
    what the point before left. -/
def outsAt (c : Dev nD) : (n : ℕ) → n < cfg0.N → Outs F
  | 0, hn =>
    (outFirst3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((condFirst_iff ⟨0, hn⟩).mpr rfl) ((condRow_iff ⟨0, hn⟩).mpr (Nat.zero_mod _)) (iblk m c 0 ⟨0, hn⟩) (iblk m c 1 ⟨0, hn⟩) (iblk m c 2 ⟨0, hn⟩),
     outFirst4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((condFirst_iff ⟨0, hn⟩).mpr rfl) ((condRow_iff ⟨0, hn⟩).mpr (Nat.zero_mod _)) (iblk m c 0 ⟨0, hn⟩) (iblk m c 1 ⟨0, hn⟩) (iblk m c 2 ⟨0, hn⟩),
     outFirst5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((condFirst_iff ⟨0, hn⟩).mpr rfl) ((condRow_iff ⟨0, hn⟩).mpr (Nat.zero_mod _)) (iblk m c 0 ⟨0, hn⟩) (iblk m c 1 ⟨0, hn⟩) (iblk m c 2 ⟨0, hn⟩),
     outFirst6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((condFirst_iff ⟨0, hn⟩).mpr rfl) ((condRow_iff ⟨0, hn⟩).mpr (Nat.zero_mod _)) (iblk m c 0 ⟨0, hn⟩) (iblk m c 1 ⟨0, hn⟩) (iblk m c 2 ⟨0, hn⟩))
  | n + 1, hn =>
    if h : (n + 1) % 16 = 0 then
      (outRow3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h1 => absurd ((condFirst_iff ⟨n + 1, hn⟩).mp h1) (Nat.succ_ne_zero n)) ((condRow_iff ⟨n + 1, hn⟩).mpr h) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1,
       outRow4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h1 => absurd ((condFirst_iff ⟨n + 1, hn⟩).mp h1) (Nat.succ_ne_zero n)) ((condRow_iff ⟨n + 1, hn⟩).mpr h) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1,
       outRow5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h1 => absurd ((condFirst_iff ⟨n + 1, hn⟩).mp h1) (Nat.succ_ne_zero n)) ((condRow_iff ⟨n + 1, hn⟩).mpr h) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1,
       outRow6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h1 => absurd ((condFirst_iff ⟨n + 1, hn⟩).mp h1) (Nat.succ_ne_zero n)) ((condRow_iff ⟨n + 1, hn⟩).mpr h) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1)
    else
      (outInner3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h1 => absurd ((condFirst_iff ⟨n + 1, hn⟩).mp h1) (Nat.succ_ne_zero n)) (fun h2 => h ((condRow_iff ⟨n + 1, hn⟩).mp h2)) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1,
       outInner4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h1 => absurd ((condFirst_iff ⟨n + 1, hn⟩).mp h1) (Nat.succ_ne_zero n)) (fun h2 => h ((condRow_iff ⟨n + 1, hn⟩).mp h2)) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1,
       (outsAt c n (Nat.lt_of_succ_lt hn)).2.2.1, (outsAt c n (Nat.lt_of_succ_lt hn)).2.2.2)

/-- `outsAt` at the first point. -/
theorem outsAt_first (c : Dev nD) (t : Fin cfg0.N) (h0 : t.val = 0) :
    outsAt m c t.val t.isLt =
      (outFirst3 c (grid0.coords t) (ms0 t) (hs0 t) (ms1 t) (hs1 t) (ms2 t) (hs2 t) (ms3 t) (hs3 t) (ms4 t) (hs4 t) (ms5 t) (hs5 t) (ms6 t) (hs6 t) ((condFirst_iff t).mpr h0) ((condRow_iff t).mpr (by omega)) (iblk m c 0 t) (iblk m c 1 t) (iblk m c 2 t),
       outFirst4 c (grid0.coords t) (ms0 t) (hs0 t) (ms1 t) (hs1 t) (ms2 t) (hs2 t) (ms3 t) (hs3 t) (ms4 t) (hs4 t) (ms5 t) (hs5 t) (ms6 t) (hs6 t) ((condFirst_iff t).mpr h0) ((condRow_iff t).mpr (by omega)) (iblk m c 0 t) (iblk m c 1 t) (iblk m c 2 t),
       outFirst5 c (grid0.coords t) (ms0 t) (hs0 t) (ms1 t) (hs1 t) (ms2 t) (hs2 t) (ms3 t) (hs3 t) (ms4 t) (hs4 t) (ms5 t) (hs5 t) (ms6 t) (hs6 t) ((condFirst_iff t).mpr h0) ((condRow_iff t).mpr (by omega)) (iblk m c 0 t) (iblk m c 1 t) (iblk m c 2 t),
       outFirst6 c (grid0.coords t) (ms0 t) (hs0 t) (ms1 t) (hs1 t) (ms2 t) (hs2 t) (ms3 t) (hs3 t) (ms4 t) (hs4 t) (ms5 t) (hs5 t) (ms6 t) (hs6 t) ((condFirst_iff t).mpr h0) ((condRow_iff t).mpr (by omega)) (iblk m c 0 t) (iblk m c 1 t) (iblk m c 2 t)) := by
  obtain ⟨n, hn⟩ := t
  cases n with
  | zero => exact rfl
  | succ n => exact absurd h0 (Nat.succ_ne_zero n)

/-- `outsAt` at the first point of a later row of tiles. -/
theorem outsAt_row (c : Dev nD) (t : Fin cfg0.N) (h0 : t.val ≠ 0) (h : t.val % 16 = 0) :
    outsAt m c t.val t.isLt =
      (outRow3 c (grid0.coords t) (ms0 t) (hs0 t) (ms1 t) (hs1 t) (ms2 t) (hs2 t) (ms3 t) (hs3 t) (ms4 t) (hs4 t) (ms5 t) (hs5 t) (ms6 t) (hs6 t) (fun h1 => h0 ((condFirst_iff t).mp h1)) ((condRow_iff t).mpr h) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1,
       outRow4 c (grid0.coords t) (ms0 t) (hs0 t) (ms1 t) (hs1 t) (ms2 t) (hs2 t) (ms3 t) (hs3 t) (ms4 t) (hs4 t) (ms5 t) (hs5 t) (ms6 t) (hs6 t) (fun h1 => h0 ((condFirst_iff t).mp h1)) ((condRow_iff t).mpr h) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1,
       outRow5 c (grid0.coords t) (ms0 t) (hs0 t) (ms1 t) (hs1 t) (ms2 t) (hs2 t) (ms3 t) (hs3 t) (ms4 t) (hs4 t) (ms5 t) (hs5 t) (ms6 t) (hs6 t) (fun h1 => h0 ((condFirst_iff t).mp h1)) ((condRow_iff t).mpr h) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1,
       outRow6 c (grid0.coords t) (ms0 t) (hs0 t) (ms1 t) (hs1 t) (ms2 t) (hs2 t) (ms3 t) (hs3 t) (ms4 t) (hs4 t) (ms5 t) (hs5 t) (ms6 t) (hs6 t) (fun h1 => h0 ((condFirst_iff t).mp h1)) ((condRow_iff t).mpr h) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1) := by
  obtain ⟨n, hn⟩ := t
  cases n with
  | zero => exact absurd rfl h0
  | succ n => exact (dif_pos h).trans rfl

/-- `outsAt` at a point that is not the first of its row of tiles. -/
theorem outsAt_inner (c : Dev nD) (t : Fin cfg0.N) (h : ¬t.val % 16 = 0) :
    outsAt m c t.val t.isLt =
      (outInner3 c (grid0.coords t) (ms0 t) (hs0 t) (ms1 t) (hs1 t) (ms2 t) (hs2 t) (ms3 t) (hs3 t) (ms4 t) (hs4 t) (ms5 t) (hs5 t) (ms6 t) (hs6 t) (fun h1 => h (by rw [(condFirst_iff t).mp h1])) (fun h2 => h ((condRow_iff t).mp h2)) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1,
       outInner4 c (grid0.coords t) (ms0 t) (hs0 t) (ms1 t) (hs1 t) (ms2 t) (hs2 t) (ms3 t) (hs3 t) (ms4 t) (hs4 t) (ms5 t) (hs5 t) (ms6 t) (hs6 t) (fun h1 => h (by rw [(condFirst_iff t).mp h1])) (fun h2 => h ((condRow_iff t).mp h2)) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1,
       (outsAt m c (t.val - 1) (Nat.lt_of_le_of_lt (Nat.sub_le _ _) t.isLt)).2.2.1, (outsAt m c (t.val - 1) (Nat.lt_of_le_of_lt (Nat.sub_le _ _) t.isLt)).2.2.2) := by
  obtain ⟨n, hn⟩ := t
  cases n with
  | zero => exact absurd (Nat.zero_mod _) h
  | succ n => exact (dif_neg h).trans rfl

/-! ## The pipeline's proof data -/

/-- The proof data of the one pipeline on core `c`: the arrays as the region finds them; after the body at point
    `t` each input's buffer at its block and the outputs' at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
    | ⟨4, _⟩ => (outsAt m c t.val t.isLt).2.1
    | ⟨5, _⟩ => (outsAt m c t.val t.isLt).2.2.1
    | ⟨6, _⟩ => (outsAt m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]
theorem after4 (c : Dev nD) (t : Fin cfg0.N) : (dats m 0 c).after 4 t = (outsAt m c t.val t.isLt).2.1 := by dsimp only [dats]
theorem after5 (c : Dev nD) (t : Fin cfg0.N) : (dats m 0 c).after 5 t = (outsAt m c t.val t.isLt).2.2.1 := by dsimp only [dats]
theorem after6 (c : Dev nD) (t : Fin cfg0.N) : (dats m 0 c).after 6 t = (outsAt m c t.val t.isLt).2.2.2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- After the first point an accumulator's staging buffer holds what the body left at the point before: it is written
    back only after the last point, and the window is live and whole at every point. -/
theorem before3_acc (c : Dev nD) (t : Fin cfg0.N) (h0 : t.val ≠ 0) (d) :
    (dats m 0 c).before 3 t d = (outsAt m c (t.val - 1) (Nat.lt_of_le_of_lt (Nat.sub_le _ _) t.isLt)).1 := by
  have hN : t.val < 128 := lt_of_lt_of_eq t.isLt (show cfg0.N = 128 from N_0)
  rw [Dat.before_out_kept _ 3 rfl t h0 (Bool.eq_false_iff.mpr fun h => by have := (flush0_3 _).mp h; dsimp only at this; omega)
    (fun _ => rfl) (fun _ _ => rfl)]
  dsimp only [dats]
theorem before4_acc (c : Dev nD) (t : Fin cfg0.N) (h0 : t.val ≠ 0) (d) :
    (dats m 0 c).before 4 t d = (outsAt m c (t.val - 1) (Nat.lt_of_le_of_lt (Nat.sub_le _ _) t.isLt)).2.1 := by
  have hN : t.val < 128 := lt_of_lt_of_eq t.isLt (show cfg0.N = 128 from N_0)
  rw [Dat.before_out_kept _ 4 rfl t h0 (Bool.eq_false_iff.mpr fun h => by have := (flush0_4 _).mp h; dsimp only at this; omega)
    (fun _ => rfl) (fun _ _ => rfl)]
  dsimp only [dats]

/-- The row windows are idle exactly at the points that are not the first of their row of tiles. -/
theorem idle5_iff : ∀ t : Fin cfg0.N, cfg0.idle 5 (cfg0.grid.coords t) = true ↔ t.val % 16 ≠ 0 :=
  (by decide +kernel : ∀ t : Fin grid0.N, cfg0.idle 5 (cfg0.grid.coords t) = true ↔ t.val % 16 ≠ 0)
theorem idle6_iff : ∀ t : Fin cfg0.N, cfg0.idle 6 (cfg0.grid.coords t) = true ↔ t.val % 16 ≠ 0 :=
  (by decide +kernel : ∀ t : Fin grid0.N, cfg0.idle 6 (cfg0.grid.coords t) = true ↔ t.val % 16 ≠ 0)

/-! ## The row windows through their idle points -/

/-- An uncut window's staging buffer keeps all of what the body left. -/
theorem kept_eq_after (c : Dev nD) (w : Fin cfg0.W) (hclip : ∀ (i : cfg0.grid.Coords) a, (cfg0.win w).clip i a = none) (t : Fin cfg0.N) (d) :
    (dats m 0 c).kept w t d = (dats m 0 c).after w t := by
  unfold Dat.kept
  rw [Pipeline.fill_of_clip_none w _ (hclip _) d ((dats m 0 c).after w t), Window.fill_cut]

/-- At a point that is not the first of its row of tiles, the first row buffer holds what the point before left:
    nothing was written back in between, and the point before either stored it (the first of the row) or found
    it so itself. -/
theorem before5_idle_aux (c : Dev nD) (d) : ∀ (n : ℕ) (hn : n < cfg0.N), ¬n % 16 = 0 →
    (dats m 0 c).before 5 ⟨n, hn⟩ d = (outsAt m c (n - 1) (Nat.lt_of_le_of_lt (Nat.sub_le _ _) hn)).2.2.1 := by
  intro n
  induction n using Nat.strong_induction_on with
  | _ n ih =>
    intro hn h
    have hN : n < 128 := lt_of_lt_of_eq hn (show cfg0.N = 128 from N_0)
    have h0 : n ≠ 0 := fun e => h (by rw [e])
    have hfl : (cfg0.win 5).flush ⟨n - 1, Nat.lt_of_le_of_lt (Nat.sub_le _ _) hn⟩ = false :=
      Bool.eq_false_iff.mpr fun hf => by have := (flush0_5 _).mp hf; dsimp only at this; omega
    rw [Dat.before_of_pos _ 5 ⟨n, hn⟩ h0 (Window.fetch_out _ rfl _), hfl, if_neg Bool.false_ne_true]
    unfold Dat.left
    by_cases h' : (n - 1) % 16 = 0
    · have hi : cfg0.idle 5 (cfg0.grid.coords ⟨n - 1, Nat.lt_of_le_of_lt (Nat.sub_le _ _) hn⟩) = false :=
        Bool.eq_false_iff.mpr fun hi => (idle5_iff _).mp hi h'
      rw [hi]; dsimp only
      rw [kept_eq_after m c 5 (fun _ _ => rfl)]
      dsimp only [dats]
    · have hi : cfg0.idle 5 (cfg0.grid.coords ⟨n - 1, Nat.lt_of_le_of_lt (Nat.sub_le _ _) hn⟩) = true := (idle5_iff _).mpr h'
      rw [hi]; dsimp only
      rw [ih (n - 1) (by omega) (Nat.lt_of_le_of_lt (Nat.sub_le _ _) hn) h']
      exact (congrArg (fun o : Outs F => o.2.2.1) (outsAt_inner m c ⟨n - 1, Nat.lt_of_le_of_lt (Nat.sub_le _ _) hn⟩ h')).symm

theorem before6_idle_aux (c : Dev nD) (d) : ∀ (n : ℕ) (hn : n < cfg0.N), ¬n % 16 = 0 →
    (dats m 0 c).before 6 ⟨n, hn⟩ d = (outsAt m c (n - 1) (Nat.lt_of_le_of_lt (Nat.sub_le _ _) hn)).2.2.2 := by
  intro n
  induction n using Nat.strong_induction_on with
  | _ n ih =>
    intro hn h
    have hN : n < 128 := lt_of_lt_of_eq hn (show cfg0.N = 128 from N_0)
    have h0 : n ≠ 0 := fun e => h (by rw [e])
    have hfl : (cfg0.win 6).flush ⟨n - 1, Nat.lt_of_le_of_lt (Nat.sub_le _ _) hn⟩ = false :=
      Bool.eq_false_iff.mpr fun hf => by have := (flush0_6 _).mp hf; dsimp only at this; omega
    rw [Dat.before_of_pos _ 6 ⟨n, hn⟩ h0 (Window.fetch_out _ rfl _), hfl, if_neg Bool.false_ne_true]
    unfold Dat.left
    by_cases h' : (n - 1) % 16 = 0
    · have hi : cfg0.idle 6 (cfg0.grid.coords ⟨n - 1, Nat.lt_of_le_of_lt (Nat.sub_le _ _) hn⟩) = false :=
        Bool.eq_false_iff.mpr fun hi => (idle6_iff _).mp hi h'
      rw [hi]; dsimp only
      rw [kept_eq_after m c 6 (fun _ _ => rfl)]
      dsimp only [dats]
    · have hi : cfg0.idle 6 (cfg0.grid.coords ⟨n - 1, Nat.lt_of_le_of_lt (Nat.sub_le _ _) hn⟩) = true := (idle6_iff _).mpr h'
      rw [hi]; dsimp only
      rw [ih (n - 1) (by omega) (Nat.lt_of_le_of_lt (Nat.sub_le _ _) hn) h']
      exact (congrArg (fun o : Outs F => o.2.2.2) (outsAt_inner m c ⟨n - 1, Nat.lt_of_le_of_lt (Nat.sub_le _ _) hn⟩ h')).symm

theorem before5_idle (c : Dev nD) (t : Fin cfg0.N) (h : ¬t.val % 16 = 0) (d) :
    (dats m 0 c).before 5 t d = (outsAt m c (t.val - 1) (Nat.lt_of_le_of_lt (Nat.sub_le _ _) t.isLt)).2.2.1 := before5_idle_aux m c d t.val t.isLt h
theorem before6_idle (c : Dev nD) (t : Fin cfg0.N) (h : ¬t.val % 16 = 0) (d) :
    (dats m 0 c).before 6 t d = (outsAt m c (t.val - 1) (Nat.lt_of_le_of_lt (Nat.sub_le _ _) t.isLt)).2.2.2 := before6_idle_aux m c d t.val t.isLt h

/-- At a point idle for it, a row buffer handed to the body at what it held is handed back as the obligation asks:
    as it was found where the point does not write it back, and where it does, at what the proof data names, which
    is the same contents. -/
theorem keep5 (c : Dev nD) (t : Fin cfg0.N) (h : ¬t.val % 16 = 0) (d) :
    owns (c : Thread nD τ) (ms5 t) fullShare ((dats m 0 c).before 5 t d) ⊢ ((dats m 0 c).leavesExact 5 t : sProp 𝕄) := by
  have hi : cfg0.idle 5 (cfg0.grid.coords t) = true := (idle5_iff t).mpr h
  by_cases hf : (cfg0.win 5).flush t = true
  · have e : (dats m 0 c).leavesExact 5 t = owns (c : Thread nD τ) (ms5 t) fullShare ((dats m 0 c).after 5 t) := by
      unfold Dat.leavesExact; rw [hi, hf]
    rw [e, before5_idle m c t h d, after5, outsAt_inner m c t h]
  · rw [Dat.leavesExact_idle _ 5 t hi (Bool.eq_false_iff.mpr hf)]
    iintro H; iexists d; iexact H
theorem keep6 (c : Dev nD) (t : Fin cfg0.N) (h : ¬t.val % 16 = 0) (d) :
    owns (c : Thread nD τ) (ms6 t) fullShare ((dats m 0 c).before 6 t d) ⊢ ((dats m 0 c).leavesExact 6 t : sProp 𝕄) := by
  have hi : cfg0.idle 6 (cfg0.grid.coords t) = true := (idle6_iff t).mpr h
  by_cases hf : (cfg0.win 6).flush t = true
  · have e : (dats m 0 c).leavesExact 6 t = owns (c : Thread nD τ) (ms6 t) fullShare ((dats m 0 c).after 6 t) := by
      unfold Dat.leavesExact; rw [hi, hf]
    rw [e, before6_idle m c t h d, after6, outsAt_inner m c t h]
  · rw [Dat.leavesExact_idle _ 6 t hi (Bool.eq_false_iff.mpr hf)]
    iintro H; iexists d; iexact H

/-- At a point live for it, what the obligation asks of a row buffer is the contents the proof data names. -/
theorem leaves_live5 (c : Dev nD) (t : Fin cfg0.N) (h : t.val % 16 = 0) :
    ((dats m 0 c).leavesExact 5 t : sProp 𝕄) = owns (c : Thread nD τ) (ms5 t) fullShare ((dats m 0 c).after 5 t) := by
  have hi : cfg0.idle 5 (cfg0.grid.coords t) = false := Bool.eq_false_iff.mpr fun hi => (idle5_iff t).mp hi h
  unfold Dat.leavesExact; rw [hi]
theorem leaves_live6 (c : Dev nD) (t : Fin cfg0.N) (h : t.val % 16 = 0) :
    ((dats m 0 c).leavesExact 6 t : sProp 𝕄) = owns (c : Thread nD τ) (ms6 t) fullShare ((dats m 0 c).after 6 t) := by
  have hi : cfg0.idle 6 (cfg0.grid.coords t) = false := Bool.eq_false_iff.mpr fun hi => (idle6_iff t).mp hi h
  unfold Dat.leavesExact; rw [hi]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (dats m 0 c).leavesExact 5 t
    ∗ (dats m 0 c).leavesExact 6 t)

set_option maxHeartbeats 1600000 in
/-- The body at any point: the inputs' memrefs hold their blocks; the closed forms say which case the point is in; an
    accumulator holds what the point before left; so that case's run applies. At a point idle for the row buffers
    they pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4]
  have hN : t.val < 128 := lt_of_lt_of_eq t.isLt (show cfg0.N = 128 from N_0)
  by_cases h : t.val % 16 = 0
  · rw [leaves_live5 m c t h, leaves_live6 m c t h, after5, after6]
    by_cases h0 : t.val = 0
    · rw [outsAt_first m c t h0]; dsimp only
      unfold outFirst3 outFirst4 outFirst5 outFirst6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ ((condFirst_iff t).mpr h0) ((condRow_iff t).mpr h) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      iintro ⟨H0, H1, H2, ⟨%e3, H3⟩, ⟨%e4, H4⟩, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverFirst3 c _ _ _ _ _ _ _ _ _ _ _ _ _ _ _ _ _ _ _ _)
      isplitl [H4]
      · unfold owns; iexists _; isplitr
        swap; · iexact H4
        ipureintro; exact View.read_writes_of_cover _ _ _ _ _ (coverFirst4 c _ _ _ _ _ _ _ _ _ _ _ _ _ _ _ _ _ _ _ _)
      isplitl [H5]
      · unfold owns; iexists _; isplitr
        swap; · iexact H5
        ipureintro; exact View.read_writes_of_cover _ _ _ _ _ (coverFirst5 c _ _ _ _ _ _ _ _ _ _ _ _ _ _ _ _ _ _ _ _)
      unfold owns; iexists _; isplitr
      swap; · iexact H6
      ipureintro; exact View.read_writes_of_cover _ _ _ _ _ (coverFirst6 c _ _ _ _ _ _ _ _ _ _ _ _ _ _ _ _ _ _ _ _)
    · simp only [before3_acc m c t h0, before4_acc m c t h0]
      rw [outsAt_row m c t h0 h]; dsimp only
      unfold outRow3 outRow4 outRow5 outRow6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runRowStart c (grid0.coords t) _ _ _ _ _ _ _ _ _ _ _ _ _ _ (fun h1 => h0 ((condFirst_iff t).mp h1)) ((condRow_iff t).mpr h) (iblk m c 0 t) (iblk m c 1 t) (iblk m c 2 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iintro ⟨H0, H1, H2, ⟨%e3, H3⟩, ⟨%e4, H4⟩, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverRow3 c _ _ _ _ _ _ _ _ _ _ _ _ _ _ _ _ _ _ _ _ _ _)
      isplitl [H4]
      · unfold owns; iexists _; isplitr
        swap; · iexact H4
        ipureintro; exact View.read_writes_of_cover _ _ _ _ _ (coverRow4 c _ _ _ _ _ _ _ _ _ _ _ _ _ _ _ _ _ _ _ _ _ _)
      isplitl [H5]
      · unfold owns; iexists _; isplitr
        swap; · iexact H5
        ipureintro; exact View.read_writes_of_cover _ _ _ _ _ (coverRow5 c _ _ _ _ _ _ _ _ _ _ _ _ _ _ _ _ _ _ _ _ _ _)
      unfold owns; iexists _; isplitr
      swap; · iexact H6
      ipureintro; exact View.read_writes_of_cover _ _ _ _ _ (coverRow6 c _ _ _ _ _ _ _ _ _ _ _ _ _ _ _ _ _ _ _ _ _ _)
  · have h0 : t.val ≠ 0 := fun e => h (by rw [e])
    simp only [before3_acc m c t h0, before4_acc m c t h0]
    rw [outsAt_inner m c t h]; dsimp only
    unfold outInner3 outInner4
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runInner c (grid0.coords t) _ _ _ _ _ _ _ _ _ _ _ _ _ _ (fun h1 => h (by rw [(condFirst_iff t).mp h1])) (fun h2 => h ((condRow_iff t).mp h2)) (iblk m c 0 t) (iblk m c 1 t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverInner3 c _ _ _ _ _ _ _ _ _ _ _ _ _ _ _ _ _ _ _ _ _ _)
    isplitl [H4]
    · unfold owns; iexists _; isplitr
      swap; · iexact H4
      ipureintro; exact View.read_writes_of_cover _ _ _ _ _ (coverInner4 c _ _ _ _ _ _ _ _ _ _ _ _ _ _ _ _ _ _ _ _ _ _)
    isplitl [H5]
    · iapply (keep5 m c t h d5); iexact H5
    iapply (keep6 m c t h d6); iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the TensorCores terminates, and
    every final state has every array of the pipeline at what the proof data gives and every other unscoped buffer as
    the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
/-
  The mathematics both programs compute, over the extended reals.

  A row `x : Fin 1024 → EReal` is scaled by its clamped Euclidean length: `nrm x = max (√(Σ_d x_d²)) ε`,
  `hat x d = x_d / nrm x`. The similarity of two rows is `cosim a p = Σ_d hat a d · hat p d`.
  Over all 4096 × 4096 pairs of rows, `sumPos` adds `exp (cosim ·)` and `sumNeg` adds `exp ((cosim ·)²)`; the
  loss is `-log (mp / (mp + mn))` of the two means (the sums over `2²⁴`). The other two results are the
  similarities of row 0 of the first array with every row of the second, resp. third, array.
  A 256 × 512 tile of pairs contributes `tilePos` / `tileNeg`.
-/
import Idealize.ShloMosaic.PureOps.Ideal
import Idealize.ShloMosaic.Lib.ValueIdx

noncomputable section

namespace Cert.Spec

open Idealize.ShloMosaic

/-- An array of 4096 rows of 1024 entries, read as its rows. -/
def rows (x : (⟨2, ![4096, 1024]⟩ : Shape).Idx → EReal) : Fin 4096 → Fin 1024 → EReal :=
  fun r d => x (ValueIdx.ix2 r d)

/-- The clamp `ε` of a row's length, the float word both programs spell. -/
def eps : EReal := Ideal.ofBits .f32 0x322BCC77#32

/-- The number of pairs of rows, `2²⁴`, as the float word both programs divide by. -/
def pairs : EReal := Ideal.ofBits .f32 0x4B800000#32

/-- A row's clamped Euclidean length. -/
def nrm (x : Fin 1024 → EReal) : EReal := max (Ideal.sqrt (∑ d : Fin 1024, x d * x d)) eps

/-- A row scaled by its clamped length. -/
def hat (x : Fin 1024 → EReal) (d : Fin 1024) : EReal := Ideal.div (x d) (nrm x)

/-- The similarity of two rows. -/
def cosim (a p : Fin 1024 → EReal) : EReal := ∑ d : Fin 1024, hat a d * hat p d

/-- One tile's share of the first sum: `exp` of the similarity over the tile's pairs of rows. -/
def tilePos (a : Fin 256 → Fin 1024 → EReal) (p : Fin 512 → Fin 1024 → EReal) : EReal :=
  ∑ r : Fin 256, ∑ c : Fin 512, Ideal.exp (cosim (a r) (p c))

/-- One tile's share of the second sum: `exp` of the squared similarity over the tile's pairs of rows. -/
def tileNeg (a : Fin 256 → Fin 1024 → EReal) (n : Fin 512 → Fin 1024 → EReal) : EReal :=
  ∑ r : Fin 256, ∑ c : Fin 512, Ideal.exp (cosim (a r) (n c) * cosim (a r) (n c))

/-- The first sum, over all pairs of rows. -/
def sumPos (A P : Fin 4096 → Fin 1024 → EReal) : EReal :=
  ∑ r : Fin 4096, ∑ c : Fin 4096, Ideal.exp (cosim (A r) (P c))

/-- The second sum, over all pairs of rows. -/
def sumNeg (A N : Fin 4096 → Fin 1024 → EReal) : EReal :=
  ∑ r : Fin 4096, ∑ c : Fin 4096, Ideal.exp (cosim (A r) (N c) * cosim (A r) (N c))

/-- The loss from the two sums: `-log (mp / (mp + mn))`, `mp` and `mn` the two means. -/
def lossOf (sp sn : EReal) : EReal :=
  - Ideal.log (Ideal.div (Ideal.div sp pairs) (Ideal.div sp pairs + Ideal.div sn pairs))

/-- The loss. -/
def loss (A P N : Fin 4096 → Fin 1024 → EReal) : EReal := lossOf (sumPos A P) (sumNeg A N)

/-- Row 0 of the first array against every row of `P`. -/
def row0 (A P : Fin 4096 → Fin 1024 → EReal) (c : Fin 4096) : EReal := cosim (A 0) (P c)

end Cert.Spec

end
-- ==== Proof.TileValue.lean ====
/-
  The tile quantities of the specification, read off the kernel body's arithmetic at the extended reals.

  A block of rows `x : n × 1024` is scaled row by row: the squares are summed over the lanes, the square root is
  clamped below by `ε`, and every entry is divided by its row's clamped length, so entry `(r, d)` is
  `hat (x r) d`. The product of the scaled 256-row block with the transpose of a scaled 512-row block is, at
  `(r, c)`, the sum over the lanes of `hat (a r) d · hat (p c) d`, the similarity `cosim (a r) (p c)`. Summing the
  exponential of the tile (resp. of its square) over the lanes and then over the rows gives `tilePos` (resp.
  `tileNeg`); the accumulators start at zero and add one tile's share at a time; row 0 of a tile is the
  similarities of row 0 of the first block with every row of the other.
-/
import proofs.«112217_j43198781063230_1_alg».proof.Proof.Gen.KernelIdeal.Skeleton
import proofs.«112217_j43198781063230_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TileValue

open Cert.KernelIdeal Cert.KernelIdeal.Gen Idealize.ShloMosaic Idealize.ShloMosaic.ValueIdx

/-! ## A block of rows scaled by their clamped lengths -/

/-- The squared entries of row `r` of an `n × 1024` block, summed over the lanes. -/
theorem sumSq_apply {n : Nat} (x : Vec Ideal ⟨2, ![n, 1024]⟩ .f32)
    (h : (⟨2, ![n, 1024]⟩ : Shape).Reduces [1] ⟨1, ![n]⟩) (r : Fin n) :
    multiReduction (F := Ideal) .add [1] ⟨1, ![n]⟩ (mulf (F := Ideal) x x) 0x00000000#32 h (.inl rfl) rfl (ix1 r)
      = ∑ d : Fin 1024, x (ix2 r d) * x (ix2 r d) := by
  refine (Ideal.multiReduction_add_single _ _ h _ _ _).trans ?_
  refine Finset.sum_congr rfl fun k _ => ?_
  have e : h.lift (ix1 r) k = ix2 r k := funext fun a => Fin.ext (by
    match a with
    | ⟨0, _⟩ => rfl
    | ⟨1, _⟩ => rfl)
  rw [e]
  rfl

/-- The column of clamped row lengths of an `n × 1024` block: `max (√(Σ_d x_d²)) ε` at row `r`. -/
def nrmCol {n : Nat} (x : Vec Ideal ⟨2, ![n, 1024]⟩ .f32)
    (h : (⟨2, ![n, 1024]⟩ : Shape).Reduces [1] ⟨1, ![n]⟩)
    (hc : (⟨1, ![n]⟩ : Shape).ShapeCasts ⟨2, ![n, 1]⟩) : FVec Ideal ⟨2, ![n, 1]⟩ .f32 :=
  maximumf (F := Ideal)
    (sqrt (F := Ideal) (shapeCast ⟨2, ![n, 1]⟩
      (multiReduction (F := Ideal) .add [1] ⟨1, ![n]⟩ (mulf (F := Ideal) x x) 0x00000000#32 h (.inl rfl) rfl) hc))
    (broadcast ⟨2, ![n, 1]⟩ (Scalar.ofBits (F := Ideal) .f32 0x322BCC77#32))

theorem nrmCol_apply {n : Nat} (x : Vec Ideal ⟨2, ![n, 1024]⟩ .f32)
    (h : (⟨2, ![n, 1024]⟩ : Shape).Reduces [1] ⟨1, ![n]⟩)
    (hc : (⟨1, ![n]⟩ : Shape).ShapeCasts ⟨2, ![n, 1]⟩) (r : Fin n) :
    nrmCol x h hc (ix2 r 0) = Cert.Spec.nrm (fun d => x (ix2 r d)) := by
  show max (Ideal.sqrt (shapeCast _ _ hc (ix2 r 0))) (Ideal.ofBits .f32 0x322BCC77#32) = _
  unfold Cert.Spec.nrm Cert.Spec.eps
  refine congrArg (fun t => max (Ideal.sqrt t) _) ?_
  refine (shapeCast_apply _ hc (ix2 r 0) (ix1 r) ?_).trans (sumSq_apply x h r)
  rw [Shape.rowMajor_val_one, Shape.rowMajor_val_two]
  show r.val = r.val * 1 + 0
  omega

/-- An `n × 1024` block with every row divided by its clamped length (the format change is the identity on
    the extended reals). -/
def hatBlock {n : Nat} (x : Vec Ideal ⟨2, ![n, 1024]⟩ .f32)
    (h : (⟨2, ![n, 1024]⟩ : Shape).Reduces [1] ⟨1, ![n]⟩)
    (hc : (⟨1, ![n]⟩ : Shape).ShapeCasts ⟨2, ![n, 1]⟩)
    (hb : (⟨2, ![n, 1]⟩ : Shape).Broadcasts ⟨2, ![n, 1024]⟩)
    (hlt : FTy.bits .bf16 < FTy.bits .f32) : FVec Ideal ⟨2, ![n, 1024]⟩ .bf16 :=
  truncf (F := Ideal) .bf16 (divf (F := Ideal) x (broadcastTo ⟨2, ![n, 1024]⟩ (nrmCol x h hc) hb)) hlt

theorem hatBlock_apply {n : Nat} (x : Vec Ideal ⟨2, ![n, 1024]⟩ .f32)
    (h : (⟨2, ![n, 1024]⟩ : Shape).Reduces [1] ⟨1, ![n]⟩)
    (hc : (⟨1, ![n]⟩ : Shape).ShapeCasts ⟨2, ![n, 1]⟩)
    (hb : (⟨2, ![n, 1]⟩ : Shape).Broadcasts ⟨2, ![n, 1024]⟩)
    (hlt : FTy.bits .bf16 < FTy.bits .f32) (r : Fin n) (d : Fin 1024) :
    hatBlock x h hc hb hlt (ix2 r d) = Cert.Spec.hat (fun d => x (ix2 r d)) d := by
  show Ideal.div (x (ix2 r d)) (broadcastTo _ (nrmCol x h hc) hb (ix2 r d)) = _
  unfold Cert.Spec.hat
  refine congrArg (Ideal.div _) ?_
  refine (broadcastTo_apply _ hb (ix2 r d) (ix2 r 0) fun a => ?_).trans (nrmCol_apply x h hc r)
  match a with
  | ⟨0, _⟩ =>
    show r.val = if n = 1 then 0 else r.val
    have := r.isLt
    split <;> omega
  | ⟨1, _⟩ =>
    show 0 = if (1 : Nat) = 1 then 0 else d.val
    rw [if_pos rfl]

/-- The kernel's scaled 256-row block is `hatBlock`. -/
theorem pay7_eq (x0 : Vec Ideal S256x1024 .f32) :
    k0_pay7 (F := Ideal) x0
      = hatBlock x0 reduces_S256x1024_S256 shapeCasts_S256_S256x1 broadcasts_S256x1_S256x1024 bitsLt_bf16_f32 := rfl

/-- The kernel's scaled first block, read at an entry. -/
theorem pay7_apply (x0 : Vec Ideal S256x1024 .f32) (r : Fin 256) (d : Fin 1024) :
    k0_pay7 (F := Ideal) x0 (ix2 r d) = Cert.Spec.hat (fun d => x0 (ix2 r d)) d :=
  hatBlock_apply x0 _ _ _ _ r d

/-! ## The product of two scaled blocks -/

/-- The dimension numbers of the kernel's two products: rows of the left operand against columns of the right. -/
abbrev D₀ : DotDims S256x1024 S1024x512 S256x512 := dot_S256x1024_S1024x512_S256x512_1_0_0_1_n_n

theorem lhs0 (i : S256x512.Idx) (q : D₀.contr.Idx) : (D₀.lhsIdx i q 0).val = (i 0).val := by
  unfold DotDims.lhsIdx
  rw [dif_neg (show ¬(0 : Fin S256x1024.rank) ∈ D₀.lhsBatch by decide),
    dif_pos (show (0 : Fin S256x1024.rank) ∈ D₀.lhsNonContracting by decide)]
  rfl
theorem lhs1 (i : S256x512.Idx) (q : D₀.contr.Idx) : (D₀.lhsIdx i q 1).val = (q ⟨0, by decide⟩).val :=
  D₀.lhsIdx_val_of_single rfl i q
theorem rhs0 (i : S256x512.Idx) (q : D₀.contr.Idx) : (D₀.rhsIdx i q 0).val = (q ⟨0, by decide⟩).val :=
  D₀.rhsIdx_val_of_single rfl i q
theorem rhs1 (i : S256x512.Idx) (q : D₀.contr.Idx) : (D₀.rhsIdx i q 1).val = (i 1).val := by
  unfold DotDims.rhsIdx
  rw [dif_neg (show ¬(1 : Fin S1024x512.rank) ∈ D₀.rhsBatch by decide),
    dif_pos (show (1 : Fin S1024x512.rank) ∈ D₀.rhsNonContracting by decide)]
  rfl

/-- A 256 × 1024 block times the transpose of a 512 × 1024 block, into a zero accumulator, read at `(r, c)`:
    the sum over the lanes of the products of row `r` and row `c`. -/
theorem matT_apply (a : FVec Ideal S256x1024 .bf16) (p : FVec Ideal S512x1024 .bf16) (r : Fin 256) (c : Fin 512) :
    matmul (F := Ideal) D₀ none a (transpose S1024x512 [1, 0] p transposes_S512x1024_p1_0_S1024x512)
        (constant S256x512 .f32 0x00000000#32) (ix2 r c)
      = ∑ k : Fin 1024, a (ix2 r k) * p (ix2 c k) := by
  simp only [matmul]
  rw [Ideal.matmul_constant_zero_apply, ← Equiv.sum_comp (contrEquiv1 D₀ 1024 rfl rfl).symm]
  refine Finset.sum_congr rfl fun k _ => ?_
  have hk := contrEquiv1_symm_val D₀ 1024 rfl rfl k
  have el : D₀.lhsIdx (ix2 r c) ((contrEquiv1 D₀ 1024 rfl rfl).symm k) = ix2 r k := funext fun b => Fin.ext (by
    match b with
    | ⟨0, _⟩ => exact lhs0 _ _
    | ⟨1, _⟩ => exact (lhs1 _ _).trans hk)
  have er : D₀.rhsIdx (ix2 r c) ((contrEquiv1 D₀ 1024 rfl rfl).symm k) = ix2 k c := funext fun b => Fin.ext (by
    match b with
    | ⟨0, _⟩ => exact (rhs0 _ _).trans hk
    | ⟨1, _⟩ => exact rhs1 _ _)
  rw [el, er]
  refine congrArg (a (ix2 r k) * ·) ?_
  exact transpose_apply [1, 0] p _ (ix2 k c) (ix2 c k) (fun b => match b with
    | ⟨0, _⟩ => rfl
    | ⟨1, _⟩ => rfl)

/-- The scaled 256-row block times the transpose of a scaled 512-row block, read at a pair of rows: their
    similarity. -/
theorem simTile_apply (x0 : Vec Ideal S256x1024 .f32) (x : Vec Ideal S512x1024 .f32) (r : Fin 256) (c : Fin 512) :
    matmul (F := Ideal) D₀ none (k0_pay7 (F := Ideal) x0)
        (transpose S1024x512 [1, 0]
          (hatBlock x reduces_S512x1024_S512 shapeCasts_S512_S512x1 broadcasts_S512x1_S512x1024 bitsLt_bf16_f32)
          transposes_S512x1024_p1_0_S1024x512) (constant S256x512 .f32 0x00000000#32) (ix2 r c)
      = Cert.Spec.cosim (fun d => x0 (ix2 r d)) (fun d => x (ix2 c d)) := by
  refine (matT_apply _ _ r c).trans ?_
  unfold Cert.Spec.cosim
  refine Finset.sum_congr rfl fun k _ => ?_
  rw [pay7_apply, hatBlock_apply]

/-- The similarity tile of the first and second arrays' blocks, read at a pair of rows. -/
theorem simPos_apply (x0 : Vec Ideal S256x1024 .f32) (x1 : Vec Ideal S512x1024 .f32) (r : Fin 256) (c : Fin 512) :
    k0_pay8 (F := Ideal) x0 x1 (ix2 r c)
      = Cert.Spec.cosim (fun d => x0 (ix2 r d)) (fun d => x1 (ix2 c d)) :=
  simTile_apply x0 x1 r c

/-- The similarity tile of the first and third arrays' blocks, read at a pair of rows. -/
theorem simNeg_apply (x0 : Vec Ideal S256x1024 .f32) (x2 : Vec Ideal S512x1024 .f32) (r : Fin 256) (c : Fin 512) :
    k0_pay9 (F := Ideal) x0 x2 (ix2 r c)
      = Cert.Spec.cosim (fun d => x0 (ix2 r d)) (fun d => x2 (ix2 c d)) :=
  simTile_apply x0 x2 r c

/-! ## The sum of a tile, lanes first and rows second -/

/-- The sum of a 256 × 512 tile as both accumulators take it: over the lanes into a column, then over the rows. -/
def total (v : FVec Ideal S256x512 .f32) : FVec Ideal S1x1 .f32 :=
  shapeCast S1x1
    (multiReduction (F := Ideal) .add [0] S1
      (shapeCast S256x1
        (multiReduction (F := Ideal) .add [1] S256 v 0x00000000#32 reduces_S256x512_S256 (.inl rfl) rfl)
        shapeCasts_S256_S256x1)
      0x00000000#32 reduces_S256x1_S1 (.inl rfl) rfl)
    shapeCasts_S1_S1x1

theorem total_apply (v : FVec Ideal S256x512 .f32) (y : S1x1.Idx) :
    total v y = ∑ r : Fin 256, ∑ c : Fin 512, v (ix2 r c) := by
  unfold total
  refine (shapeCast_apply _ shapeCasts_S1_S1x1 y (ix1 0) ?_).trans ?_
  · rw [Shape.rowMajor_val_one, Shape.rowMajor_val_two]
    have h0 := idx2_lt0 y
    have h1 := idx2_lt1 y
    show 0 = (y 0).val * 1 + (y 1).val
    omega
  refine (Ideal.multiReduction_add_single _ _ reduces_S256x1_S1 _ _ _).trans ?_
  refine Finset.sum_congr rfl fun r _ => ?_
  have e : reduces_S256x1_S1.lift (ix1 0) r = ix2 r 0 := funext fun a => Fin.ext (by
    match a with
    | ⟨0, _⟩ => rfl
    | ⟨1, _⟩ => rfl)
  rw [e]
  refine (shapeCast_apply _ shapeCasts_S256_S256x1 (ix2 r 0) (ix1 r) ?_).trans ?_
  · rw [Shape.rowMajor_val_one, Shape.rowMajor_val_two]
    show r.val = r.val * 1 + 0
    omega
  refine (Ideal.multiReduction_add_single _ _ reduces_S256x512_S256 _ _ _).trans ?_
  refine Finset.sum_congr rfl fun c _ => ?_
  exact congrArg v (funext fun a => Fin.ext (by
    match a with
    | ⟨0, _⟩ => rfl
    | ⟨1, _⟩ => rfl))

/-- One tile's share of the first sum. -/
theorem totalPos_apply (x0 : Vec Ideal S256x1024 .f32) (x1 : Vec Ideal S512x1024 .f32) (y : S1x1.Idx) :
    k0_pay11 (F := Ideal) x0 x1 y
      = Cert.Spec.tilePos (fun r d => x0 (ix2 r d)) (fun c d => x1 (ix2 c d)) := by
  show total (exp (F := Ideal) (k0_pay8 (F := Ideal) x0 x1)) y = _
  rw [total_apply]
  unfold Cert.Spec.tilePos
  refine Finset.sum_congr rfl fun r _ => Finset.sum_congr rfl fun c _ => ?_
  show Ideal.exp (k0_pay8 (F := Ideal) x0 x1 (ix2 r c)) = _
  rw [simPos_apply]

/-- The exponential of the squared similarity tile, read at a pair of rows. -/
theorem expSqNeg_apply (x0 : Vec Ideal S256x1024 .f32) (x2 : Vec Ideal S512x1024 .f32) (r : Fin 256) (c : Fin 512) :
    k0_pay10 (F := Ideal) x0 x2 (ix2 r c)
      = Ideal.exp (Cert.Spec.cosim (fun d => x0 (ix2 r d)) (fun d => x2 (ix2 c d))
          * Cert.Spec.cosim (fun d => x0 (ix2 r d)) (fun d => x2 (ix2 c d))) := by
  show Ideal.exp (k0_pay9 (F := Ideal) x0 x2 (ix2 r c) * k0_pay9 (F := Ideal) x0 x2 (ix2 r c)) = _
  rw [simNeg_apply]

/-- The first accumulator's update: what it held plus the tile's share. -/
theorem accPos_apply (x0 : Vec Ideal S256x1024 .f32) (x1 : Vec Ideal S512x1024 .f32) (v50 : Vec Ideal S1x1 .f32)
    (y : S1x1.Idx) :
    k0_pay3 (F := Ideal) (k0_pay11 (F := Ideal) x0 x1) v50 y
      = v50 y + Cert.Spec.tilePos (fun r d => x0 (ix2 r d)) (fun c d => x1 (ix2 c d)) := by
  show shapeCast S1x1 v50 shapeCasts_S1x1_S1x1 y + k0_pay11 (F := Ideal) x0 x1 y = _
  rw [shapeCast_self, totalPos_apply]

/-- The second accumulator's update: what it held plus the tile's share. -/
theorem accNeg_apply (x0 : Vec Ideal S256x1024 .f32) (x2 : Vec Ideal S512x1024 .f32) (v54 : Vec Ideal S1x1 .f32)
    (y : S1x1.Idx) :
    k0_pay4 (F := Ideal) (k0_pay10 (F := Ideal) x0 x2) v54 y
      = v54 y + Cert.Spec.tileNeg (fun r d => x0 (ix2 r d)) (fun c d => x2 (ix2 c d)) := by
  show shapeCast S1x1 v54 shapeCasts_S1x1_S1x1 y + total (k0_pay10 (F := Ideal) x0 x2) y = _
  rw [shapeCast_self, total_apply]
  unfold Cert.Spec.tileNeg
  refine congrArg (v54 y + ·) ?_
  refine Finset.sum_congr rfl fun r _ => Finset.sum_congr rfl fun c _ => ?_
  exact expSqNeg_apply x0 x2 r c

/-- The accumulators start at zero. -/
theorem zeroPos_apply (y : S1x1.Idx) : k0_pay1 (F := Ideal) y = 0 := Ideal.ofBits_zero_f32
theorem zeroNeg_apply (y : S1x1.Idx) : k0_pay2 (F := Ideal) y = 0 := Ideal.ofBits_zero_f32

/-- Row 0 of a 256 × 512 tile. -/
theorem row0_apply (v : FVec Ideal S256x512 .f32) (c : Fin 512) :
    extractStridedSlice S1x512 ![0, 0] v slices_S256x512_o0_0_S1x512 (ix2 0 c) = v (ix2 0 c) :=
  extractStridedSlice_apply _ v _ (ix2 0 c) (ix2 0 c) fun a => by
    match a with
    | ⟨0, _⟩ => rfl
    | ⟨1, _⟩ => exact (Nat.zero_add _).symm

/-- Row 0 of the first similarity tile. -/
theorem rowPos_apply (x0 : Vec Ideal S256x1024 .f32) (x1 : Vec Ideal S512x1024 .f32) (c : Fin 512) :
    k0_pay5 (F := Ideal) (k0_pay8 (F := Ideal) x0 x1) (ix2 0 c)
      = Cert.Spec.cosim (fun d => x0 (ix2 0 d)) (fun d => x1 (ix2 c d)) :=
  (row0_apply _ c).trans (simPos_apply x0 x1 0 c)

/-- Row 0 of the second similarity tile. -/
theorem rowNeg_apply (x0 : Vec Ideal S256x1024 .f32) (x2 : Vec Ideal S512x1024 .f32) (c : Fin 512) :
    k0_pay6 (F := Ideal) (k0_pay9 (F := Ideal) x0 x2) (ix2 0 c)
      = Cert.Spec.cosim (fun d => x0 (ix2 0 d)) (fun d => x2 (ix2 c d)) :=
  (row0_apply _ c).trans (simNeg_apply x0 x2 0 c)

end Cert.KernelIdeal.TileValue

end
-- ==== Proof.Tiling.lean ====
import Mathlib.Algebra.BigOperators.Fin
import Mathlib.Algebra.BigOperators.Group.Finset.Basic
import Mathlib.Logic.Equiv.Fin.Basic
import Mathlib.Data.Fintype.BigOperators

/-!
# Tiling a double sum over a grid of rectangular tiles

A double sum over `Fin 4096 × Fin 4096` is cut into `128 = 8 * 16` rectangular tiles of
`256 × 512` index pairs.  Tile `t` covers the rows `(t % 16) * 256 + r` (`r < 256`) of the first
index and the rows `(t / 16) * 512 + c` (`c < 512`) of the second index.  The tiles partition the
square, so summing tile by tile gives the full double sum.  Everything is stated over an arbitrary
additive commutative monoid: only commutativity and associativity of `+` are used.

The second part turns a running accumulator (start at `0`, add one term per step) into a sum.
-/

namespace Cert.Tiling

open Finset

/-- Mixed-radix bound: a digit pair `(i, r)` with `i < m`, `r < n` encodes a number below `m * n`. -/
theorem tile_lt {m n : ℕ} (i : Fin m) (r : Fin n) : i.val * n + r.val < m * n :=
  calc i.val * n + r.val < i.val * n + n := Nat.add_lt_add_left r.isLt _
    _ = (i.val + 1) * n := (Nat.succ_mul _ _).symm
    _ ≤ m * n := Nat.mul_le_mul_right _ i.isLt

/-- One-dimensional tiling: summing over `Fin (m * n)` is summing over the `m` blocks of
length `n`, block `i` holding the indices `i * n + r`. -/
theorem sum_split {M : Type*} [AddCommMonoid M] (m n : ℕ) (h : Fin (m * n) → M) :
    ∑ i : Fin m, ∑ r : Fin n, h ⟨i.val * n + r.val, tile_lt i r⟩ = ∑ x : Fin (m * n), h x := by
  rw [← finProdFinEquiv.sum_comp h, Fintype.sum_prod_type]
  refine Finset.sum_congr rfl fun i _ => Finset.sum_congr rfl fun r _ => congrArg h (Fin.ext ?_)
  show i.val * n + r.val = r.val + n * i.val
  rw [Nat.mul_comm, Nat.add_comm]

/-- The 128 tiles of size `256 × 512`, tile `t` sitting at block row `t % 16` and block column
`t / 16`, partition `Fin 4096 × Fin 4096`; hence the tile-by-tile sum is the full double sum. -/
theorem sum_tiles {M : Type*} [AddCommMonoid M] (g : Fin 4096 → Fin 4096 → M) :
    ∑ t : Fin 128, ∑ r : Fin 256, ∑ c : Fin 512,
        g ⟨(t.val % 16) * 256 + r.val, by omega⟩ ⟨(t.val / 16) * 512 + c.val, by omega⟩
      = ∑ r : Fin 4096, ∑ c : Fin 4096, g r c := by
  -- write the tile number as `t = j * 16 + i` with `j < 8`, `i < 16`
  have hT := sum_split (M := M) 8 16 (fun t : Fin 128 => ∑ r : Fin 256, ∑ c : Fin 512,
        g ⟨(t.val % 16) * 256 + r.val, by omega⟩ ⟨(t.val / 16) * 512 + c.val, by omega⟩)
  refine hT.symm.trans ?_
  -- the first index splits into 16 blocks of 256, the second into 8 blocks of 512
  have hR := sum_split (M := M) 16 256 (fun x : Fin 4096 => ∑ y : Fin 4096, g x y)
  have hC : ∀ x : Fin 4096,
      ∑ j : Fin 8, ∑ c : Fin 512, g x ⟨j.val * 512 + c.val, tile_lt j c⟩ = ∑ y : Fin 4096, g x y :=
    fun x => sum_split (M := M) 8 512 (fun y : Fin 4096 => g x y)
  refine Eq.trans ?_ hR
  -- both sides are now fourfold sums over `(j, i, r, c)`, in different orders
  have hL : ∀ (j : Fin 8) (i : Fin 16),
      (∑ r : Fin 256, ∑ c : Fin 512,
          g ⟨((⟨j.val * 16 + i.val, tile_lt j i⟩ : Fin 128).val % 16) * 256 + r.val, by omega⟩
            ⟨((⟨j.val * 16 + i.val, tile_lt j i⟩ : Fin 128).val / 16) * 512 + c.val, by omega⟩)
        = ∑ r : Fin 256, ∑ c : Fin 512,
            g ⟨i.val * 256 + r.val, tile_lt i r⟩ ⟨j.val * 512 + c.val, tile_lt j c⟩ := by
    intro j i
    refine Finset.sum_congr rfl fun r _ => Finset.sum_congr rfl fun c _ => ?_
    have h1 : (j.val * 16 + i.val) % 16 = i.val := by
      rw [Nat.add_comm, Nat.add_mul_mod_self_right]; exact Nat.mod_eq_of_lt i.isLt
    have h2 : (j.val * 16 + i.val) / 16 = j.val := by
      rw [Nat.add_comm, Nat.add_mul_div_right _ _ (by decide : 0 < 16), Nat.div_eq_of_lt i.isLt,
        Nat.zero_add]
    exact congrArg₂ g (Fin.ext (by show (j.val * 16 + i.val) % 16 * 256 + r.val = _; rw [h1]))
      (Fin.ext (by show (j.val * 16 + i.val) / 16 * 512 + c.val = _; rw [h2]))
  calc ∑ j : Fin 8, ∑ i : Fin 16, (∑ r : Fin 256, ∑ c : Fin 512,
          g ⟨((⟨j.val * 16 + i.val, tile_lt j i⟩ : Fin 128).val % 16) * 256 + r.val, by omega⟩
            ⟨((⟨j.val * 16 + i.val, tile_lt j i⟩ : Fin 128).val / 16) * 512 + c.val, by omega⟩)
      = ∑ j : Fin 8, ∑ i : Fin 16, ∑ r : Fin 256, ∑ c : Fin 512,
          g ⟨i.val * 256 + r.val, tile_lt i r⟩ ⟨j.val * 512 + c.val, tile_lt j c⟩ :=
        Finset.sum_congr rfl fun j _ => Finset.sum_congr rfl fun i _ => hL j i
    _ = ∑ i : Fin 16, ∑ j : Fin 8, ∑ r : Fin 256, ∑ c : Fin 512,
          g ⟨i.val * 256 + r.val, tile_lt i r⟩ ⟨j.val * 512 + c.val, tile_lt j c⟩ :=
        Finset.sum_comm
    _ = ∑ i : Fin 16, ∑ r : Fin 256, ∑ j : Fin 8, ∑ c : Fin 512,
          g ⟨i.val * 256 + r.val, tile_lt i r⟩ ⟨j.val * 512 + c.val, tile_lt j c⟩ :=
        Finset.sum_congr rfl fun i _ => Finset.sum_comm
    _ = ∑ i : Fin 16, ∑ r : Fin 256, ∑ y : Fin 4096, g ⟨i.val * 256 + r.val, tile_lt i r⟩ y :=
        Finset.sum_congr rfl fun i _ => Finset.sum_congr rfl fun r _ => hC _

/-- A running accumulator over `N` steps that starts from `0 + f 0` and adds `f t` at step `t`
holds, after step `n`, the sum of the first `n + 1` terms. -/
theorem acc_prefix {M : Type*} [AddCommMonoid M] {N : ℕ} (hN : 0 < N) (f acc : Fin N → M)
    (h0 : acc ⟨0, hN⟩ = 0 + f ⟨0, hN⟩)
    (hs : ∀ t : Fin N, (h : t.val ≠ 0) → acc t = acc ⟨t.val - 1, by omega⟩ + f t) :
    ∀ (n : ℕ) (hn : n < N),
      acc ⟨n, hn⟩ = ∑ k ∈ Finset.range (n + 1), if h : k < N then f ⟨k, h⟩ else 0
  | 0, hn => by
      rw [Finset.sum_range_one, dif_pos hn, h0, zero_add]
  | n + 1, hn => by
      rw [Finset.sum_range_succ, dif_pos hn, hs ⟨n + 1, hn⟩ (Nat.succ_ne_zero n)]
      exact congrArg (· + f ⟨n + 1, hn⟩) (acc_prefix hN f acc h0 hs n (Nat.lt_of_succ_lt hn))

/-- After the last of the 128 steps the accumulator holds the sum of all 128 terms. -/
theorem acc_eq_sum {M : Type*} [AddCommMonoid M] (f : Fin 128 → M) (acc : Fin 128 → M)
    (h0 : acc 0 = 0 + f 0)
    (hs : ∀ t : Fin 128, (h : t.val ≠ 0) → acc t = acc ⟨t.val - 1, by omega⟩ + f t) :
    acc ⟨127, by omega⟩ = ∑ t : Fin 128, f t := by
  have hp := acc_prefix (M := M) (N := 128) (by omega) f acc h0 hs 127 (by omega)
  refine hp.trans ?_
  refine (Fin.sum_univ_eq_sum_range (fun k => if h : k < 128 then f ⟨k, h⟩ else 0) 128).symm.trans ?_
  exact Finset.sum_congr rfl fun t _ => dif_pos t.isLt

end Cert.Tiling
-- ==== Proof.IdealValue.lean ====
/-
  The kernel's four outputs as values.

  Reading back what each control case stores: an accumulator ends a point at "what it held + this tile's total" (at the
  first point "zero + this tile's total"), a row buffer is stored with row 0 of this tile's similarities. From these,
  by induction on the grid point: after the last point the two accumulators hold the sums over all 128 tiles, which
  partition the 4096 × 4096 pairs of rows; and throughout a row of tiles a row buffer holds row 0 of the first array
  against that row of tiles' 512 rows of the other array. The blocks written back cover the result arrays, and the
  lines after the region reshape them and form the loss.
-/
import proofs.«112217_j43198781063230_1_alg».proof.Proof.IdealData
import proofs.«112217_j43198781063230_1_alg».proof.Proof.TileValue
import proofs.«112217_j43198781063230_1_alg».proof.Proof.Tiling
import proofs.«112217_j43198781063230_1_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

/-! ## What each case stores, as payload terms -/

section Pieces

variable {F : FTy → Type} [FloatOps F]

theorem hz : (![0, 0] : Fin 2 → Nat) = fun _ => 0 := funext fun a => by fin_cases a <;> rfl

theorem outFirst3_eq (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) :
    outFirst3 c i arg2 harg2 arg3 harg3 arg4 harg4 arg5 harg5 arg6 harg6 arg7 harg7 arg8 harg8 hc1 hc2 x0 x1 x2 = k0_pay3 (k0_pay11 x0 x1) k0_pay1 := by
  unfold outFirst3
  rw [View.read_writes_eq_canon _ _ _ (coverFirst3 c i arg2 harg2 arg3 harg3 arg4 harg4 arg5 harg5 arg6 harg6 arg7 harg7 arg8 harg8 hc1 hc2 x0 x1 x2)]
  unfold runFirst
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, View.ld_unit_zero (S := S256x1024) hz, View.ld_unit_zero (S := S512x1024) hz, View.ld_unit_zero (S := S1x1) hz]

theorem outFirst4_eq (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) :
    outFirst4 c i arg2 harg2 arg3 harg3 arg4 harg4 arg5 harg5 arg6 harg6 arg7 harg7 arg8 harg8 hc1 hc2 x0 x1 x2 = k0_pay4 (k0_pay10 x0 x2) k0_pay2 := by
  unfold outFirst4
  rw [View.read_writes_eq_canon _ _ _ (coverFirst4 c i arg2 harg2 arg3 harg3 arg4 harg4 arg5 harg5 arg6 harg6 arg7 harg7 arg8 harg8 hc1 hc2 x0 x1 x2)]
  unfold runFirst
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, View.ld_unit_zero (S := S256x1024) hz, View.ld_unit_zero (S := S512x1024) hz, View.ld_unit_zero (S := S1x1) hz]

theorem outFirst5_eq (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) :
    outFirst5 c i arg2 harg2 arg3 harg3 arg4 harg4 arg5 harg5 arg6 harg6 arg7 harg7 arg8 harg8 hc1 hc2 x0 x1 x2 = k0_pay5 (k0_pay8 x0 x1) := by
  unfold outFirst5
  rw [View.read_writes_eq_canon _ _ _ (coverFirst5 c i arg2 harg2 arg3 harg3 arg4 harg4 arg5 harg5 arg6 harg6 arg7 harg7 arg8 harg8 hc1 hc2 x0 x1 x2)]
  unfold runFirst
  dsimp only
  sl_unfold_words
  rw [View.canon_unit_zero (S := S1x512) hz]
  simp only [View.readAt_eq_ld, harg2.read_unread, harg3.read_unread, harg4.read_unread, harg5.read_unread, harg6.read_unread, View.ld_unit_zero (S := S256x1024) hz, View.ld_unit_zero (S := S512x1024) hz, View.ld_unit_zero (S := S1x1) hz]

theorem outFirst6_eq (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : condFirst i) (hc2 : condRow i) (x0 : Vec F S256x1024 .f32) (x1 : Vec F S512x1024 .f32) (x2 : Vec F S512x1024 .f32) :
    outFirst6 c i arg2 harg2 arg3 harg3 arg4 harg4 arg5 harg5 arg6 harg6 arg7 harg7 arg8 harg8 hc1 hc2 x0 x1 x2 = k0_pay6 (k0_pay9 x0 x2) := by
  unfold outFirst6
  rw [View.read_writes_eq_canon _ _ _ (coverFirst6 c i arg2 harg2 arg3 harg3 arg4 harg4 arg5 harg5 arg6 harg6 arg7 harg7 arg8 harg8 hc1 hc2 x0 x1 x2)]
  unfold runFirst
  dsimp only
  sl_unfold_words
  rw [View.canon_unit_zero (S := S1x512) hz]
  simp only [View.readAt_eq_ld, harg2.read_unread, harg3.read_unread, harg4.read_unread, harg5.read_unread, harg6.read_unread, View.ld_unit_zero (S := S256x1024) hz, View.ld_unit_zero (S := S512x1024) hz, View.ld_unit_zero (S := S1x1) hz]

theorem outInner3_eq (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : ¬condRow i) (x0 : Vec F S256x1024 .f32) (x1 : Vec F S512x1024 .f32) (x2 : Vec F S512x1024 .f32) (xo5 xo6 : Vec F S1x1 .f32) :
    outInner3 c i arg2 harg2 arg3 harg3 arg4 harg4 arg5 harg5 arg6 harg6 arg7 harg7 arg8 harg8 hc1 hc2 x0 x1 x2 xo5 xo6 = k0_pay3 (k0_pay11 x0 x1) xo5 := by
  unfold outInner3
  rw [View.read_writes_eq_canon _ _ _ (coverInner3 c i arg2 harg2 arg3 harg3 arg4 harg4 arg5 harg5 arg6 harg6 arg7 harg7 arg8 harg8 hc1 hc2 x0 x1 x2 xo5 xo6)]
  unfold runInner
  dsimp only
  sl_unfold_words
  rw [View.canon_unit_zero (S := S1x1) hz]
  simp only [View.readAt_eq_ld, harg2.read_unread, harg3.read_unread, harg4.read_unread, harg5.read_unread, harg6.read_unread, View.ld_unit_zero (S := S256x1024) hz, View.ld_unit_zero (S := S512x1024) hz, View.ld_unit_zero (S := S1x1) hz]

theorem outInner4_eq (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : ¬condRow i) (x0 : Vec F S256x1024 .f32) (x1 : Vec F S512x1024 .f32) (x2 : Vec F S512x1024 .f32) (xo5 xo6 : Vec F S1x1 .f32) :
    outInner4 c i arg2 harg2 arg3 harg3 arg4 harg4 arg5 harg5 arg6 harg6 arg7 harg7 arg8 harg8 hc1 hc2 x0 x1 x2 xo5 xo6 = k0_pay4 (k0_pay10 x0 x2) xo6 := by
  unfold outInner4
  rw [View.read_writes_eq_canon _ _ _ (coverInner4 c i arg2 harg2 arg3 harg3 arg4 harg4 arg5 harg5 arg6 harg6 arg7 harg7 arg8 harg8 hc1 hc2 x0 x1 x2 xo5 xo6)]
  unfold runInner
  dsimp only
  sl_unfold_words
  rw [View.canon_unit_zero (S := S1x1) hz]
  simp only [View.readAt_eq_ld, harg2.read_unread, harg3.read_unread, harg4.read_unread, harg5.read_unread, harg6.read_unread, View.ld_unit_zero (S := S256x1024) hz, View.ld_unit_zero (S := S512x1024) hz, View.ld_unit_zero (S := S1x1) hz]

theorem outRow3_eq (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) :
    outRow3 c i arg2 harg2 arg3 harg3 arg4 harg4 arg5 harg5 arg6 harg6 arg7 harg7 arg8 harg8 hc1 hc2 x0 x1 x2 xo5 xo6 = k0_pay3 (k0_pay11 x0 x1) xo5 := by
  unfold outRow3
  rw [View.read_writes_eq_canon _ _ _ (coverRow3 c i arg2 harg2 arg3 harg3 arg4 harg4 arg5 harg5 arg6 harg6 arg7 harg7 arg8 harg8 hc1 hc2 x0 x1 x2 xo5 xo6)]
  unfold runRowStart
  dsimp only
  sl_unfold_words
  rw [View.canon_unit_zero (S := S1x1) hz]
  simp only [View.readAt_eq_ld, harg2.read_unread, harg3.read_unread, harg4.read_unread, harg5.read_unread, harg6.read_unread, View.ld_unit_zero (S := S256x1024) hz, View.ld_unit_zero (S := S512x1024) hz, View.ld_unit_zero (S := S1x1) hz]

theorem outRow4_eq (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) :
    outRow4 c i arg2 harg2 arg3 harg3 arg4 harg4 arg5 harg5 arg6 harg6 arg7 harg7 arg8 harg8 hc1 hc2 x0 x1 x2 xo5 xo6 = k0_pay4 (k0_pay10 x0 x2) xo6 := by
  unfold outRow4
  rw [View.read_writes_eq_canon _ _ _ (coverRow4 c i arg2 harg2 arg3 harg3 arg4 harg4 arg5 harg5 arg6 harg6 arg7 harg7 arg8 harg8 hc1 hc2 x0 x1 x2 xo5 xo6)]
  unfold runRowStart
  dsimp only
  sl_unfold_words
  rw [View.canon_unit_zero (S := S1x1) hz]
  simp only [View.readAt_eq_ld, harg2.read_unread, harg3.read_unread, harg4.read_unread, harg5.read_unread, harg6.read_unread, View.ld_unit_zero (S := S256x1024) hz, View.ld_unit_zero (S := S512x1024) hz, View.ld_unit_zero (S := S1x1) hz]

theorem outRow5_eq (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) :
    outRow5 c i arg2 harg2 arg3 harg3 arg4 harg4 arg5 harg5 arg6 harg6 arg7 harg7 arg8 harg8 hc1 hc2 x0 x1 x2 xo5 xo6 = k0_pay5 (k0_pay8 x0 x1) := by
  unfold outRow5
  rw [View.read_writes_eq_canon _ _ _ (coverRow5 c i arg2 harg2 arg3 harg3 arg4 harg4 arg5 harg5 arg6 harg6 arg7 harg7 arg8 harg8 hc1 hc2 x0 x1 x2 xo5 xo6)]
  unfold runRowStart
  dsimp only
  sl_unfold_words
  rw [View.canon_unit_zero (S := S1x512) hz]
  simp only [View.readAt_eq_ld, harg2.read_unread, harg3.read_unread, harg4.read_unread, harg5.read_unread, harg6.read_unread, View.ld_unit_zero (S := S256x1024) hz, View.ld_unit_zero (S := S512x1024) hz, View.ld_unit_zero (S := S1x1) hz]

theorem outRow6_eq (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x512 .f32) (harg8 : arg8.IsWhole) (hc1 : ¬condFirst i) (hc2 : condRow i) (x0 : Vec F S256x1024 .f32) (x1 : Vec F S512x1024 .f32) (x2 : Vec F S512x1024 .f32) (xo5 xo6 : Vec F S1x1 .f32) :
    outRow6 c i arg2 harg2 arg3 harg3 arg4 harg4 arg5 harg5 arg6 harg6 arg7 harg7 arg8 harg8 hc1 hc2 x0 x1 x2 xo5 xo6 = k0_pay6 (k0_pay9 x0 x2) := by
  unfold outRow6
  rw [View.read_writes_eq_canon _ _ _ (coverRow6 c i arg2 harg2 arg3 harg3 arg4 harg4 arg5 harg5 arg6 harg6 arg7 harg7 arg8 harg8 hc1 hc2 x0 x1 x2 xo5 xo6)]
  unfold runRowStart
  dsimp only
  sl_unfold_words
  rw [View.canon_unit_zero (S := S1x512) hz]
  simp only [View.readAt_eq_ld, harg2.read_unread, harg3.read_unread, harg4.read_unread, harg5.read_unread, harg6.read_unread, View.ld_unit_zero (S := S256x1024) hz, View.ld_unit_zero (S := S512x1024) hz, View.ld_unit_zero (S := S1x1) hz]

end Pieces

/-! ## At the extended reals -/

section AtIdeal

variable (m : (ℓ : Loc nD τ sig) → Buf (Elt Ideal) ℓ) (ρ : Dev nD → PrngReg)

/-- The three argument arrays, read as rows. -/
def rowsA (c : Dev nD) : Fin 4096 → Fin 1024 → EReal := Cert.Spec.rows (m ((c.tc : Thread nD τ).loc main_arg0))
def rowsP (c : Dev nD) : Fin 4096 → Fin 1024 → EReal := Cert.Spec.rows (m ((c.tc : Thread nD τ).loc main_arg1))
def rowsN (c : Dev nD) : Fin 4096 → Fin 1024 → EReal := Cert.Spec.rows (m ((c.tc : Thread nD τ).loc main_arg2))

theorem N_128 : cfg0.N = 128 := N_0

/-- Point t = j * 16 + i takes block i of the first array and block j of the other two, and writes block j of the
    two row results. -/
theorem idx0 : ∀ t : Fin cfg0.N, win0_0.index t 0 = t.val % 16 ∧ win0_0.index t 1 = 0 :=
  (by decide +kernel : ∀ t : Fin grid0.N, win0_0.index t 0 = t.val % 16 ∧ win0_0.index t 1 = 0)
theorem idx1 : ∀ t : Fin cfg0.N, win0_1.index t 0 = t.val / 16 ∧ win0_1.index t 1 = 0 :=
  (by decide +kernel : ∀ t : Fin grid0.N, win0_1.index t 0 = t.val / 16 ∧ win0_1.index t 1 = 0)
theorem idx2 : ∀ t : Fin cfg0.N, win0_2.index t 0 = t.val / 16 ∧ win0_2.index t 1 = 0 :=
  (by decide +kernel : ∀ t : Fin grid0.N, win0_2.index t 0 = t.val / 16 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = t.val / 16 :=
  (by decide +kernel : ∀ t : Fin grid0.N, win0_5.index t 0 = 0 ∧ win0_5.index t 1 = t.val / 16)
theorem idx6 : ∀ t : Fin cfg0.N, win0_6.index t 0 = 0 ∧ win0_6.index t 1 = t.val / 16 :=
  (by decide +kernel : ∀ t : Fin grid0.N, win0_6.index t 0 = 0 ∧ win0_6.index t 1 = t.val / 16)

/-- An entry of a block is the entry of the argument array at the block's offset. -/
theorem iblk0_apply (c : Dev nD) (t : Fin cfg0.N) (r : Fin 256) (d : Fin 1024) :
    (iblk m c 0 t : Vec Ideal S256x1024 .f32) (ix2 r d)
      = rowsA m c ⟨t.val % 16 * 256 + r.val, by have := r.isLt; omega⟩ d := by
  unfold iblk rowsA Cert.Spec.rows
  rw [View.read_apply]
  show m ((c : Thread nD τ).loc main_arg0) _ = m ((c.tc : Thread nD τ).loc main_arg0) _
  congr 1
  funext a; apply Fin.ext
  match a with
  | ⟨0, _⟩ => show win0_0.index t 0 * 256 + 1 * r.val = t.val % 16 * 256 + r.val; rw [(idx0 t).1]; omega
  | ⟨1, _⟩ => show win0_0.index t 1 * 1024 + 1 * d.val = d.val; rw [(idx0 t).2]; omega

theorem iblk1_apply (c : Dev nD) (t : Fin cfg0.N) (r : Fin 512) (d : Fin 1024) :
    (iblk m c 1 t : Vec Ideal S512x1024 .f32) (ix2 r d)
      = rowsP m c ⟨t.val / 16 * 512 + r.val, by have := r.isLt; have := lt_of_lt_of_eq t.isLt N_128; omega⟩ d := by
  unfold iblk rowsP Cert.Spec.rows
  rw [View.read_apply]
  show m ((c : Thread nD τ).loc main_arg1) _ = m ((c.tc : Thread nD τ).loc main_arg1) _
  congr 1
  funext a; apply Fin.ext
  match a with
  | ⟨0, _⟩ => show win0_1.index t 0 * 512 + 1 * r.val = t.val / 16 * 512 + r.val; rw [(idx1 t).1]; omega
  | ⟨1, _⟩ => show win0_1.index t 1 * 1024 + 1 * d.val = d.val; rw [(idx1 t).2]; omega

theorem iblk2_apply (c : Dev nD) (t : Fin cfg0.N) (r : Fin 512) (d : Fin 1024) :
    (iblk m c 2 t : Vec Ideal S512x1024 .f32) (ix2 r d)
      = rowsN m c ⟨t.val / 16 * 512 + r.val, by have := r.isLt; have := lt_of_lt_of_eq t.isLt N_128; omega⟩ d := by
  unfold iblk rowsN Cert.Spec.rows
  rw [View.read_apply]
  show m ((c : Thread nD τ).loc main_arg2) _ = m ((c.tc : Thread nD τ).loc main_arg2) _
  congr 1
  funext a; apply Fin.ext
  match a with
  | ⟨0, _⟩ => show win0_2.index t 0 * 512 + 1 * r.val = t.val / 16 * 512 + r.val; rw [(idx2 t).1]; omega
  | ⟨1, _⟩ => show win0_2.index t 1 * 1024 + 1 * d.val = d.val; rw [(idx2 t).2]; omega

/-- The totals of point `t`'s tile. -/
def tileP (c : Dev nD) (t : Fin cfg0.N) : EReal :=
  Cert.Spec.tilePos (fun r d => (iblk m c 0 t : Vec Ideal S256x1024 .f32) (ix2 r d)) (fun r d => (iblk m c 1 t : Vec Ideal S512x1024 .f32) (ix2 r d))
def tileN (c : Dev nD) (t : Fin cfg0.N) : EReal :=
  Cert.Spec.tileNeg (fun r d => (iblk m c 0 t : Vec Ideal S256x1024 .f32) (ix2 r d)) (fun r d => (iblk m c 2 t : Vec Ideal S512x1024 .f32) (ix2 r d))

/-! ### The accumulators -/

theorem acc3_first (c : Dev nD) (t : Fin cfg0.N) (h0 : t.val = 0) (y : S1x1.Idx) :
    (outsAt m c t.val t.isLt).1 y = 0 + tileP m c t := by
  rw [outsAt_first m c t h0]; dsimp only
  rw [outFirst3_eq]
  have e1 := TileValue.accPos_apply (iblk m c 0 t) (iblk m c 1 t) (k0_pay1 (F := Ideal)) y
  rw [TileValue.zeroPos_apply y] at e1
  exact e1

theorem acc4_first (c : Dev nD) (t : Fin cfg0.N) (h0 : t.val = 0) (y : S1x1.Idx) :
    (outsAt m c t.val t.isLt).2.1 y = 0 + tileN m c t := by
  rw [outsAt_first m c t h0]; dsimp only
  rw [outFirst4_eq]
  have e1 := TileValue.accNeg_apply (iblk m c 0 t) (iblk m c 2 t) (k0_pay2 (F := Ideal)) y
  rw [TileValue.zeroNeg_apply y] at e1
  exact e1

theorem acc3_step (c : Dev nD) (t : Fin cfg0.N) (h0 : t.val ≠ 0) (y : S1x1.Idx) :
    (outsAt m c t.val t.isLt).1 y = (outsAt m c (t.val - 1) (Nat.lt_of_le_of_lt (Nat.sub_le _ _) t.isLt)).1 y + tileP m c t := by
  by_cases h : t.val % 16 = 0
  · rw [outsAt_row m c t h0 h]; dsimp only
    rw [outRow3_eq]
    exact TileValue.accPos_apply (iblk m c 0 t) (iblk m c 1 t) _ y
  · rw [outsAt_inner m c t h]; dsimp only
    rw [outInner3_eq]
    exact TileValue.accPos_apply (iblk m c 0 t) (iblk m c 1 t) _ y

theorem acc4_step (c : Dev nD) (t : Fin cfg0.N) (h0 : t.val ≠ 0) (y : S1x1.Idx) :
    (outsAt m c t.val t.isLt).2.1 y = (outsAt m c (t.val - 1) (Nat.lt_of_le_of_lt (Nat.sub_le _ _) t.isLt)).2.1 y + tileN m c t := by
  by_cases h : t.val % 16 = 0
  · rw [outsAt_row m c t h0 h]; dsimp only
    rw [outRow4_eq]
    exact TileValue.accNeg_apply (iblk m c 0 t) (iblk m c 2 t) _ y
  · rw [outsAt_inner m c t h]; dsimp only
    rw [outInner4_eq]
    exact TileValue.accNeg_apply (iblk m c 0 t) (iblk m c 2 t) _ y

/-- The tile totals by point number (zero beyond the grid). -/
def tP (c : Dev nD) (k : ℕ) : EReal := if h : k < cfg0.N then tileP m c ⟨k, h⟩ else 0
def tN (c : Dev nD) (k : ℕ) : EReal := if h : k < cfg0.N then tileN m c ⟨k, h⟩ else 0

/-- After point n the first accumulator holds the totals of the tiles of points 0 … n: it was cleared at the first
    point and receives one tile's total per point. -/
theorem acc3_sum (c : Dev nD) (y : S1x1.Idx) : ∀ (n : ℕ) (hn : n < cfg0.N),
    (outsAt m c n hn).1 y = ∑ k ∈ Finset.range (n + 1), tP m c k
  | 0, hn => by
    rw [Finset.sum_range_one]; unfold tP; rw [dif_pos hn]
    exact (acc3_first m c ⟨0, hn⟩ rfl y).trans (zero_add _)
  | n + 1, hn => by
    rw [Finset.sum_range_succ, ← acc3_sum c y n (Nat.lt_of_succ_lt hn)]
    unfold tP; rw [dif_pos hn]
    exact acc3_step m c ⟨n + 1, hn⟩ (Nat.succ_ne_zero n) y

theorem acc4_sum (c : Dev nD) (y : S1x1.Idx) : ∀ (n : ℕ) (hn : n < cfg0.N),
    (outsAt m c n hn).2.1 y = ∑ k ∈ Finset.range (n + 1), tN m c k
  | 0, hn => by
    rw [Finset.sum_range_one]; unfold tN; rw [dif_pos hn]
    exact (acc4_first m c ⟨0, hn⟩ rfl y).trans (zero_add _)
  | n + 1, hn => by
    rw [Finset.sum_range_succ, ← acc4_sum c y n (Nat.lt_of_succ_lt hn)]
    unfold tN; rw [dif_pos hn]
    exact acc4_step m c ⟨n + 1, hn⟩ (Nat.succ_ne_zero n) y

/-- After the last point the first accumulator holds the first sum: the 128 tiles partition the pairs of rows. -/
theorem acc3_last (c : Dev nD) (y : S1x1.Idx) (n : ℕ) (hn : n < cfg0.N) (h : n = 127) :
    (outsAt m c n hn).1 y = Cert.Spec.sumPos (rowsA m c) (rowsP m c) := by
  rw [acc3_sum m c y n hn, h]
  show ∑ k ∈ Finset.range 128, tP m c k = _
  rw [← Fin.sum_univ_eq_sum_range (fun k => tP m c k) 128]
  unfold Cert.Spec.sumPos
  refine Eq.trans ?_ (Cert.Tiling.sum_tiles (fun r cc => Ideal.exp (Cert.Spec.cosim (rowsA m c r) (rowsP m c cc))))
  refine Finset.sum_congr rfl fun t _ => ?_
  have ht : t.val < cfg0.N := lt_of_lt_of_eq t.isLt N_128.symm
  show tP m c t.val = _
  unfold tP; rw [dif_pos ht]
  unfold tileP Cert.Spec.tilePos
  refine Finset.sum_congr rfl fun r _ => Finset.sum_congr rfl fun cc _ => ?_
  exact congrArg Ideal.exp (congrArg₂ Cert.Spec.cosim (funext fun d => iblk0_apply m c ⟨t.val, ht⟩ r d) (funext fun d => iblk1_apply m c ⟨t.val, ht⟩ cc d))

theorem acc4_last (c : Dev nD) (y : S1x1.Idx) (n : ℕ) (hn : n < cfg0.N) (h : n = 127) :
    (outsAt m c n hn).2.1 y = Cert.Spec.sumNeg (rowsA m c) (rowsN m c) := by
  rw [acc4_sum m c y n hn, h]
  show ∑ k ∈ Finset.range 128, tN m c k = _
  rw [← Fin.sum_univ_eq_sum_range (fun k => tN m c k) 128]
  unfold Cert.Spec.sumNeg
  refine Eq.trans ?_ (Cert.Tiling.sum_tiles (fun r cc => Ideal.exp (Cert.Spec.cosim (rowsA m c r) (rowsN m c cc) * Cert.Spec.cosim (rowsA m c r) (rowsN m c cc))))
  refine Finset.sum_congr rfl fun t _ => ?_
  have ht : t.val < cfg0.N := lt_of_lt_of_eq t.isLt N_128.symm
  show tN m c t.val = _
  unfold tN; rw [dif_pos ht]
  unfold tileN Cert.Spec.tileNeg
  refine Finset.sum_congr rfl fun r _ => Finset.sum_congr rfl fun cc _ => ?_
  exact congrArg Ideal.exp (congrArg₂ (fun a p => Cert.Spec.cosim a p * Cert.Spec.cosim a p) (funext fun d => iblk0_apply m c ⟨t.val, ht⟩ r d) (funext fun d => iblk2_apply m c ⟨t.val, ht⟩ cc d))

/-! ### The row buffers -/

theorem row5_stored (c : Dev nD) (t : Fin cfg0.N) (h : t.val % 16 = 0) :
    (outsAt m c t.val t.isLt).2.2.1 = k0_pay5 (k0_pay8 (iblk m c 0 t) (iblk m c 1 t)) := by
  by_cases h0 : t.val = 0
  · rw [outsAt_first m c t h0]; dsimp only; rw [outFirst5_eq]
  · rw [outsAt_row m c t h0 h]; dsimp only; rw [outRow5_eq]
theorem row6_stored (c : Dev nD) (t : Fin cfg0.N) (h : t.val % 16 = 0) :
    (outsAt m c t.val t.isLt).2.2.2 = k0_pay6 (k0_pay9 (iblk m c 0 t) (iblk m c 2 t)) := by
  by_cases h0 : t.val = 0
  · rw [outsAt_first m c t h0]; dsimp only; rw [outFirst6_eq]
  · rw [outsAt_row m c t h0 h]; dsimp only; rw [outRow6_eq]
theorem row5_carried (c : Dev nD) (t : Fin cfg0.N) (h : ¬t.val % 16 = 0) :
    (outsAt m c t.val t.isLt).2.2.1 = (outsAt m c (t.val - 1) (Nat.lt_of_le_of_lt (Nat.sub_le _ _) t.isLt)).2.2.1 := by
  rw [outsAt_inner m c t h]
theorem row6_carried (c : Dev nD) (t : Fin cfg0.N) (h : ¬t.val % 16 = 0) :
    (outsAt m c t.val t.isLt).2.2.2 = (outsAt m c (t.val - 1) (Nat.lt_of_le_of_lt (Nat.sub_le _ _) t.isLt)).2.2.2 := by
  rw [outsAt_inner m c t h]

/-- Throughout row j of tiles the first row buffer holds row 0 of the first array against rows j * 512 … of the second. -/
theorem row5_at (c : Dev nD) : ∀ (n : ℕ) (hn : n < cfg0.N) (cc : Fin 512),
    (outsAt m c n hn).2.2.1 (ix2 0 cc)
      = Cert.Spec.row0 (rowsA m c) (rowsP m c) ⟨n / 16 * 512 + cc.val, by have := cc.isLt; rw [N_128] at hn; omega⟩ := by
  intro n
  induction n using Nat.strong_induction_on with
  | _ n ih =>
    intro hn cc
    have hN : n < 128 := lt_of_lt_of_eq hn N_128
    by_cases h : n % 16 = 0
    · have e : (outsAt m c n hn).2.2.1 = k0_pay5 (k0_pay8 (iblk m c 0 ⟨n, hn⟩) (iblk m c 1 ⟨n, hn⟩)) := row5_stored m c ⟨n, hn⟩ h
      rw [e]
      refine (TileValue.rowPos_apply (iblk m c 0 ⟨n, hn⟩) (iblk m c 1 ⟨n, hn⟩) cc).trans ?_
      unfold Cert.Spec.row0
      exact congrArg₂ Cert.Spec.cosim
        (funext fun d => (iblk0_apply m c ⟨n, hn⟩ 0 d).trans (congrArg (fun r => rowsA m c r d) (Fin.ext (by show n % 16 * 256 + 0 = 0; omega))))
        (funext fun d => iblk1_apply m c ⟨n, hn⟩ cc d)
    · have e : (outsAt m c n hn).2.2.1 = (outsAt m c (n - 1) (Nat.lt_of_le_of_lt (Nat.sub_le _ _) hn)).2.2.1 := row5_carried m c ⟨n, hn⟩ h
      refine (congrFun e (ix2 0 cc)).trans ((ih (n - 1) (by omega) _ cc).trans (congrArg (Cert.Spec.row0 _ _) (Fin.ext ?_)))
      show (n - 1) / 16 * 512 + cc.val = n / 16 * 512 + cc.val
      omega

theorem row6_at (c : Dev nD) : ∀ (n : ℕ) (hn : n < cfg0.N) (cc : Fin 512),
    (outsAt m c n hn).2.2.2 (ix2 0 cc)
      = Cert.Spec.row0 (rowsA m c) (rowsN m c) ⟨n / 16 * 512 + cc.val, by have := cc.isLt; rw [N_128] at hn; omega⟩ := by
  intro n
  induction n using Nat.strong_induction_on with
  | _ n ih =>
    intro hn cc
    have hN : n < 128 := lt_of_lt_of_eq hn N_128
    by_cases h : n % 16 = 0
    · have e : (outsAt m c n hn).2.2.2 = k0_pay6 (k0_pay9 (iblk m c 0 ⟨n, hn⟩) (iblk m c 2 ⟨n, hn⟩)) := row6_stored m c ⟨n, hn⟩ h
      rw [e]
      refine (TileValue.rowNeg_apply (iblk m c 0 ⟨n, hn⟩) (iblk m c 2 ⟨n, hn⟩) cc).trans ?_
      unfold Cert.Spec.row0
      exact congrArg₂ Cert.Spec.cosim
        (funext fun d => (iblk0_apply m c ⟨n, hn⟩ 0 d).trans (congrArg (fun r => rowsA m c r d) (Fin.ext (by show n % 16 * 256 + 0 = 0; omega))))
        (funext fun d => iblk2_apply m c ⟨n, hn⟩ cc d)
    · have e : (outsAt m c n hn).2.2.2 = (outsAt m c (n - 1) (Nat.lt_of_le_of_lt (Nat.sub_le _ _) hn)).2.2.2 := row6_carried m c ⟨n, hn⟩ h
      refine (congrFun e (ix2 0 cc)).trans ((ih (n - 1) (by omega) _ cc).trans (congrArg (Cert.Spec.row0 _ _) (Fin.ext ?_)))
      show (n - 1) / 16 * 512 + cc.val = n / 16 * 512 + cc.val
      omega

end AtIdeal

end Cert.KernelIdeal.Hand

end
-- ==== Proof.IdealFinal.lean ====
/-
  The kernel's results as whole arrays.

  Each write-back writes a block of one function of the argument arrays: the single entry of an accumulator's array
  is the sum over all pairs of rows (written once, after the last point), and entry c of a row array is the
  similarity of row 0 of the first array with row c of the other (block j written after the last point of row j of
  tiles). The blocks cover the arrays. The lines after the region reshape the four arrays and form the loss from the
  two sums.
-/
import proofs.«112217_j43198781063230_1_alg».proof.Proof.IdealValue

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

variable (m : (ℓ : Loc nD τ sig) → Buf (Elt Ideal) ℓ) (ρ : Dev nD → PrngReg)

/-- No block of an output window overhangs its array: every block has its full extents. -/
theorem xs3 : ∀ t : Fin cfg0.N, win0_3.xsize (grid0.coords t) 0 = 1 ∧ win0_3.xsize (grid0.coords t) 1 = 1 :=
  (by decide +kernel : ∀ t : Fin grid0.N, win0_3.xsize (grid0.coords t) 0 = 1 ∧ win0_3.xsize (grid0.coords t) 1 = 1)
theorem xs4 : ∀ t : Fin cfg0.N, win0_4.xsize (grid0.coords t) 0 = 1 ∧ win0_4.xsize (grid0.coords t) 1 = 1 :=
  (by decide +kernel : ∀ t : Fin grid0.N, win0_4.xsize (grid0.coords t) 0 = 1 ∧ win0_4.xsize (grid0.coords t) 1 = 1)
theorem xs5 : ∀ t : Fin cfg0.N, win0_5.xsize (grid0.coords t) 0 = 1 ∧ win0_5.xsize (grid0.coords t) 1 = 512 :=
  (by decide +kernel : ∀ t : Fin grid0.N, win0_5.xsize (grid0.coords t) 0 = 1 ∧ win0_5.xsize (grid0.coords t) 1 = 512)
theorem xs6 : ∀ t : Fin cfg0.N, win0_6.xsize (grid0.coords t) 0 = 1 ∧ win0_6.xsize (grid0.coords t) 1 = 512 :=
  (by decide +kernel : ∀ t : Fin grid0.N, win0_6.xsize (grid0.coords t) 0 = 1 ∧ win0_6.xsize (grid0.coords t) 1 = 512)

/-- The four result arrays of the region, as functions of the argument arrays. -/
def G3 (c : Dev nD) : Buf (Elt Ideal) ((c.tc : Thread nD τ).loc main_v0_0) := fun _ => Cert.Spec.sumPos (rowsA m c) (rowsP m c)
def G4 (c : Dev nD) : Buf (Elt Ideal) ((c.tc : Thread nD τ).loc main_v0_1) := fun _ => Cert.Spec.sumNeg (rowsA m c) (rowsN m c)
def G5 (c : Dev nD) : Buf (Elt Ideal) ((c.tc : Thread nD τ).loc main_v0_2) := fun i => Cert.Spec.row0 (rowsA m c) (rowsP m c) (i 1)
def G6 (c : Dev nD) : Buf (Elt Ideal) ((c.tc : Thread nD τ).loc main_v0_3) := fun i => Cert.Spec.row0 (rowsA m c) (rowsN m c) (i 1)

/-- The one write-back of this accumulator, after the last point, writes the sum. -/
theorem flushed3 (c : Dev nD) (t : Fin cfg0.N) (hf : (cfg0.win 3).flush t = true) :
    (dats m 0 c).flushed 3 t = ((cfg0.win 3).blk t).view.read (Elt Ideal) (G3 m c) := by
  have hlt : t.val < 128 := lt_of_lt_of_eq t.isLt N_128
  have h127 : t.val = 127 := by have := (flush0_3 t).mp hf; omega
  funext y
  rw [View.read_apply]
  show (dats m 0 c).after 3 t (win0_3.xinj (grid0.coords t) y) = _
  rw [after3]
  exact acc3_last m c _ t.val t.isLt h127

/-- That block is the whole one-entry array, so the array ends holding the sum. -/
theorem final3 (c : Dev nD) : (dats m 0 c).arrAt 3 cfg0.N = G3 m c :=
  (dats m 0 c).arrAt_eq_of_cover 3 (G3 m c) (flushed3 m c) fun i => by
    have h0 : (i 0 : Nat) < 1 := (i 0).isLt
    have h1 : (i 1 : Nat) < 1 := (i 1).isLt
    have hb : 127 < cfg0.N := lt_of_lt_of_eq (by omega : 127 < 128) N_128.symm
    refine ⟨⟨127, hb⟩, (flush0_3 _).mpr rfl, ?_⟩
    show i ∈ ((View.whole main_v0_0).slice (win0_3.rect ⟨127, hb⟩)).set
    rw [View.set_slice_whole, Rect.mem_set_unit]
    intro a
    match a with
    | ⟨0, _⟩ =>
      show win0_3.index _ 0 * 1 ≤ (i 0 : Nat) ∧ (i 0 : Nat) < win0_3.index _ 0 * 1 + win0_3.xsize (grid0.coords _) 0
      rw [(idx3 _).1, (xs3 _).1]; omega
    | ⟨1, _⟩ =>
      show win0_3.index _ 1 * 1 ≤ (i 1 : Nat) ∧ (i 1 : Nat) < win0_3.index _ 1 * 1 + win0_3.xsize (grid0.coords _) 1
      rw [(idx3 _).2, (xs3 _).2]; omega

/-- The one write-back of this accumulator, after the last point, writes the sum. -/
theorem flushed4 (c : Dev nD) (t : Fin cfg0.N) (hf : (cfg0.win 4).flush t = true) :
    (dats m 0 c).flushed 4 t = ((cfg0.win 4).blk t).view.read (Elt Ideal) (G4 m c) := by
  have hlt : t.val < 128 := lt_of_lt_of_eq t.isLt N_128
  have h127 : t.val = 127 := by have := (flush0_4 t).mp hf; omega
  funext y
  rw [View.read_apply]
  show (dats m 0 c).after 4 t (win0_4.xinj (grid0.coords t) y) = _
  rw [after4]
  exact acc4_last m c _ t.val t.isLt h127

/-- That block is the whole one-entry array, so the array ends holding the sum. -/
theorem final4 (c : Dev nD) : (dats m 0 c).arrAt 4 cfg0.N = G4 m c :=
  (dats m 0 c).arrAt_eq_of_cover 4 (G4 m c) (flushed4 m c) fun i => by
    have h0 : (i 0 : Nat) < 1 := (i 0).isLt
    have h1 : (i 1 : Nat) < 1 := (i 1).isLt
    have hb : 127 < cfg0.N := lt_of_lt_of_eq (by omega : 127 < 128) N_128.symm
    refine ⟨⟨127, hb⟩, (flush0_4 _).mpr rfl, ?_⟩
    show i ∈ ((View.whole main_v0_1).slice (win0_4.rect ⟨127, hb⟩)).set
    rw [View.set_slice_whole, Rect.mem_set_unit]
    intro a
    match a with
    | ⟨0, _⟩ =>
      show win0_4.index _ 0 * 1 ≤ (i 0 : Nat) ∧ (i 0 : Nat) < win0_4.index _ 0 * 1 + win0_4.xsize (grid0.coords _) 0
      rw [(idx4 _).1, (xs4 _).1]; omega
    | ⟨1, _⟩ =>
      show win0_4.index _ 1 * 1 ≤ (i 1 : Nat) ∧ (i 1 : Nat) < win0_4.index _ 1 * 1 + win0_4.xsize (grid0.coords _) 1
      rw [(idx4 _).2, (xs4 _).2]; omega

/-- The write-back after the last point of row j of tiles writes block j of the row result. -/
theorem flushed5 (c : Dev nD) (t : Fin cfg0.N) (hf : (cfg0.win 5).flush t = true) :
    (dats m 0 c).flushed 5 t = ((cfg0.win 5).blk t).view.read (Elt Ideal) (G5 m c) := by
  have hlt : t.val < 128 := lt_of_lt_of_eq t.isLt N_128
  funext y
  rw [View.read_apply]
  show (dats m 0 c).after 5 t (win0_5.xinj (grid0.coords t) y) = G5 m c (((cfg0.win 5).blk t).view.emb y)
  rw [after5]
  have hy0 : (y 0).val < 1 := lt_of_lt_of_eq (y 0).isLt (xs5 t).1
  have hy1 : (y 1).val < 512 := lt_of_lt_of_eq (y 1).isLt (xs5 t).2
  have ex : win0_5.xinj (grid0.coords t) y = ix2 (0 : Fin 1) (⟨(y 1).val, hy1⟩ : Fin 512) :=
    funext fun a => Fin.ext (by
      match a with
      | ⟨0, _⟩ => show (y 0).val = 0; omega
      | ⟨1, _⟩ => rfl)
  rw [ex, row5_at m c t.val t.isLt ⟨(y 1).val, hy1⟩]
  unfold G5
  refine congrArg (Cert.Spec.row0 _ _) (Fin.ext ?_)
  show t.val / 16 * 512 + (y 1).val = win0_5.index t 1 * 512 + 1 * (y 1).val
  rw [(idx5 t).2]; omega

/-- The eight blocks written back cover the 4096 entries, so the array ends holding the row of similarities. -/
theorem final5 (c : Dev nD) : (dats m 0 c).arrAt 5 cfg0.N = G5 m c :=
  (dats m 0 c).arrAt_eq_of_cover 5 (G5 m c) (flushed5 m c) fun i => by
    have h0 : (i 0 : Nat) < 1 := (i 0).isLt
    have h1 : (i 1 : Nat) < 4096 := (i 1).isLt
    have hb : 16 * ((i 1 : Nat) / 512) + 15 < cfg0.N := lt_of_lt_of_eq (by omega : 16 * ((i 1 : Nat) / 512) + 15 < 128) N_128.symm
    refine ⟨⟨16 * ((i 1 : Nat) / 512) + 15, hb⟩, (flush0_5 _).mpr (by show (16 * ((i 1 : Nat) / 512) + 15) % 16 = 15; omega), ?_⟩
    show i ∈ ((View.whole main_v0_2).slice (win0_5.rect ⟨16 * ((i 1 : Nat) / 512) + 15, hb⟩)).set
    rw [View.set_slice_whole, Rect.mem_set_unit]
    intro a
    match a with
    | ⟨0, _⟩ =>
      show win0_5.index _ 0 * 1 ≤ (i 0 : Nat) ∧ (i 0 : Nat) < win0_5.index _ 0 * 1 + win0_5.xsize (grid0.coords _) 0
      rw [(idx5 _).1, (xs5 _).1]; omega
    | ⟨1, _⟩ =>
      show win0_5.index _ 1 * 512 ≤ (i 1 : Nat) ∧ (i 1 : Nat) < win0_5.index _ 1 * 512 + win0_5.xsize (grid0.coords _) 1
      rw [(idx5 _).2, (xs5 _).2]
      show (16 * ((i 1 : Nat) / 512) + 15) / 16 * 512 ≤ (i 1 : Nat) ∧ (i 1 : Nat) < (16 * ((i 1 : Nat) / 512) + 15) / 16 * 512 + 512
      omega

/-- The write-back after the last point of row j of tiles writes block j of the row result. -/
theorem flushed6 (c : Dev nD) (t : Fin cfg0.N) (hf : (cfg0.win 6).flush t = true) :
    (dats m 0 c).flushed 6 t = ((cfg0.win 6).blk t).view.read (Elt Ideal) (G6 m c) := by
  have hlt : t.val < 128 := lt_of_lt_of_eq t.isLt N_128
  funext y
  rw [View.read_apply]
  show (dats m 0 c).after 6 t (win0_6.xinj (grid0.coords t) y) = G6 m c (((cfg0.win 6).blk t).view.emb y)
  rw [after6]
  have hy0 : (y 0).val < 1 := lt_of_lt_of_eq (y 0).isLt (xs6 t).1
  have hy1 : (y 1).val < 512 := lt_of_lt_of_eq (y 1).isLt (xs6 t).2
  have ex : win0_6.xinj (grid0.coords t) y = ix2 (0 : Fin 1) (⟨(y 1).val, hy1⟩ : Fin 512) :=
    funext fun a => Fin.ext (by
      match a with
      | ⟨0, _⟩ => show (y 0).val = 0; omega
      | ⟨1, _⟩ => rfl)
  rw [ex, row6_at m c t.val t.isLt ⟨(y 1).val, hy1⟩]
  unfold G6
  refine congrArg (Cert.Spec.row0 _ _) (Fin.ext ?_)
  show t.val / 16 * 512 + (y 1).val = win0_6.index t 1 * 512 + 1 * (y 1).val
  rw [(idx6 t).2]; omega

/-- The eight blocks written back cover the 4096 entries, so the array ends holding the row of similarities. -/
theorem final6 (c : Dev nD) : (dats m 0 c).arrAt 6 cfg0.N = G6 m c :=
  (dats m 0 c).arrAt_eq_of_cover 6 (G6 m c) (flushed6 m c) fun i => by
    have h0 : (i 0 : Nat) < 1 := (i 0).isLt
    have h1 : (i 1 : Nat) < 4096 := (i 1).isLt
    have hb : 16 * ((i 1 : Nat) / 512) + 15 < cfg0.N := lt_of_lt_of_eq (by omega : 16 * ((i 1 : Nat) / 512) + 15 < 128) N_128.symm
    refine ⟨⟨16 * ((i 1 : Nat) / 512) + 15, hb⟩, (flush0_6 _).mpr (by show (16 * ((i 1 : Nat) / 512) + 15) % 16 = 15; omega), ?_⟩
    show i ∈ ((View.whole main_v0_3).slice (win0_6.rect ⟨16 * ((i 1 : Nat) / 512) + 15, hb⟩)).set
    rw [View.set_slice_whole, Rect.mem_set_unit]
    intro a
    match a with
    | ⟨0, _⟩ =>
      show win0_6.index _ 0 * 1 ≤ (i 0 : Nat) ∧ (i 0 : Nat) < win0_6.index _ 0 * 1 + win0_6.xsize (grid0.coords _) 0
      rw [(idx6 _).1, (xs6 _).1]; omega
    | ⟨1, _⟩ =>
      show win0_6.index _ 1 * 512 ≤ (i 1 : Nat) ∧ (i 1 : Nat) < win0_6.index _ 1 * 512 + win0_6.xsize (grid0.coords _) 1
      rw [(idx6 _).2, (xs6 _).2]
      show (16 * ((i 1 : Nat) / 512) + 15) / 16 * 512 ≤ (i 1 : Nat) ∧ (i 1 : Nat) < (16 * ((i 1 : Nat) / 512) + 15) / 16 * 512 + 512
      omega

/-! ## The lines after the region -/

/-- The region's arrays as the lines after it find them. -/
theorem arr3 (c : Dev nD) : Pipeline.withArrays (cfgs 0).spec c (V0 m c) (fun w => (dats m 0 c).arrAt w (cfgs 0).N) (Proc.tc.devRef main_v0_0) = G3 m c :=
  (Pipeline.withArrays_arr spec0 launch0.win.arr_inj c _ _ 3).trans (final3 m c)
theorem arr4 (c : Dev nD) : Pipeline.withArrays (cfgs 0).spec c (V0 m c) (fun w => (dats m 0 c).arrAt w (cfgs 0).N) (Proc.tc.devRef main_v0_1) = G4 m c :=
  (Pipeline.withArrays_arr spec0 launch0.win.arr_inj c _ _ 4).trans (final4 m c)
theorem arr5 (c : Dev nD) : Pipeline.withArrays (cfgs 0).spec c (V0 m c) (fun w => (dats m 0 c).arrAt w (cfgs 0).N) (Proc.tc.devRef main_v0_2) = G5 m c :=
  (Pipeline.withArrays_arr spec0 launch0.win.arr_inj c _ _ 5).trans (final5 m c)
theorem arr6 (c : Dev nD) : Pipeline.withArrays (cfgs 0).spec c (V0 m c) (fun w => (dats m 0 c).arrAt w (cfgs 0).N) (Proc.tc.devRef main_v0_3) = G6 m c :=
  (Pipeline.withArrays_arr spec0 launch0.win.arr_inj c _ _ 6).trans (final6 m c)

/-- The scalar lines: two means, their ratio, its logarithm, negated, of two arrays constant at the two sums. -/
theorem tail_loss (X Y : (⟨S_, .f32⟩ : BufTy).Contents (Elt Ideal)) (sp sn : EReal) (hX : ∀ i, X i = sp) (hY : ∀ i, Y i = sn) (i : S_.Idx) :
    Host.negf (F := Ideal) (Host.log (F := Ideal) (Host.divf (F := Ideal) (Host.divf (F := Ideal) X (constant (F := Ideal) S_ .f32 0x4B800000#32))
      (addf (F := Ideal) (Host.divf (F := Ideal) X (constant (F := Ideal) S_ .f32 0x4B800000#32)) (Host.divf (F := Ideal) Y (constant (F := Ideal) S_ .f32 0x4B800000#32))))) i
      = Cert.Spec.lossOf sp sn := by
  show FloatOps.hostNegf (F := Ideal) (φ := .f32) (FloatOps.hostUnary (F := Ideal) (φ := .f32) .log (FloatOps.hostDivf (F := Ideal) (φ := .f32)
      (FloatOps.hostDivf (F := Ideal) (φ := .f32) (X i) (FloatOps.ofBits (F := Ideal) .f32 0x4B800000#32))
      (FloatOps.addf (F := Ideal) (φ := .f32) (FloatOps.hostDivf (F := Ideal) (φ := .f32) (X i) (FloatOps.ofBits (F := Ideal) .f32 0x4B800000#32))
        (FloatOps.hostDivf (F := Ideal) (φ := .f32) (Y i) (FloatOps.ofBits (F := Ideal) .f32 0x4B800000#32))))) = _
  rw [hX, hY]
  simp only [Ideal.hostNegf_def, Ideal.negf_def, Ideal.hostUnary_log_def, Ideal.hostDivf_def, Ideal.addf_def, Ideal.ofBits_def]
  rfl

/-- A [1, 4096] array whose entry depends on its second coordinate only, reshaped to [4096], is that dependence. -/
abbrev rowIdx (i : S4096.Idx) : S1x4096.Idx := fun a => match a with
  | ⟨0, _⟩ => ⟨0, Nat.one_pos⟩
  | ⟨1, _⟩ => ⟨(i 0).val, (i 0).isLt⟩
theorem reshape_row (g : Fin 4096 → EReal) (i : S4096.Idx) :
    shapeCast S4096 (fun j : S1x4096.Idx => g (j 1)) shapeCasts_S1x4096_S4096 i = g (i 0) := by
  refine (shapeCast_apply (fun j : S1x4096.Idx => g (j 1)) shapeCasts_S1x4096_S4096 i (rowIdx i) ?_).trans rfl
  rewrite [Shape.rowMajor_val_two, Shape.rowMajor_val_one]
  show 0 * 4096 + (i 0).val = (i 0).val
  omega

theorem tail10 (c : Dev nD) :
    Pipeline.afterTail₀ cfgs (dats m) 0 (V0 m) [hostOps1] c main_v10 = fun _ => Cert.Spec.loss (rowsA m c) (rowsP m c) (rowsN m c) := by
  unfold Pipeline.afterTail₀
  show StableHlo.after hostOps1 _ (Proc.devRef .tc main_v10) = _
  after_results
  rw [arr3 m c, arr4 m c]
  funext i
  exact tail_loss _ _ _ _ (fun _ => rfl) (fun _ => rfl) i

theorem tail3 (c : Dev nD) :
    Pipeline.afterTail₀ cfgs (dats m) 0 (V0 m) [hostOps1] c main_v3 = fun i => Cert.Spec.row0 (rowsA m c) (rowsP m c) (i 0) := by
  unfold Pipeline.afterTail₀
  show StableHlo.after hostOps1 _ (Proc.devRef .tc main_v3) = _
  after_results
  rw [arr5 m c]
  funext i
  exact reshape_row (fun cc => Cert.Spec.row0 (rowsA m c) (rowsP m c) cc) i

theorem tail4 (c : Dev nD) :
    Pipeline.afterTail₀ cfgs (dats m) 0 (V0 m) [hostOps1] c main_v4 = fun i => Cert.Spec.row0 (rowsA m c) (rowsN m c) (i 0) := by
  unfold Pipeline.afterTail₀
  show StableHlo.after hostOps1 _ (Proc.devRef .tc main_v4) = _
  after_results
  rw [arr6 m c]
  funext i
  exact reshape_row (fun cc => Cert.Spec.row0 (rowsA m c) (rowsN m c) cc) i

/-! ## The run, read as values -/

theorem mem_rest (b : Ref sig .tc) (hs : b.isScoped = false) (ha : ∀ w, (spec0 w).arr.view.ref ≠ b) :
    b ∈ Pipeline.restRefs sig (cfgs 0).spec := Pipeline.mem_restRefs_of b hs ha

/-- Every weakly fair execution of the idealized kernel terminates with the loss in its first result, row 0 of the two
    similarity matrices in the other two, and the argument arrays unchanged. -/
theorem run_value : θ_run defs (onTc (τ := τ) (main (F := Ideal))) ⟨m, fun _ => 0, ρ⟩ (fun r => ∀ c : Dev nD,
      r.2.mem ((c.tc : Thread nD τ).loc main_v10) = (fun _ => Cert.Spec.loss (rowsA m c) (rowsP m c) (rowsN m c))
      ∧ r.2.mem ((c.tc : Thread nD τ).loc main_v3) = (fun i => Cert.Spec.row0 (rowsA m c) (rowsP m c) (i 0))
      ∧ r.2.mem ((c.tc : Thread nD τ).loc main_v4) = (fun i => Cert.Spec.row0 (rowsA m c) (rowsN m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v10 (mem_rest main_v10 rfl (fun w => by fin_cases w <;> decide))).trans (tail10 m c),
     ((h c).2 main_v3 (mem_rest main_v3 rfl (fun w => by fin_cases w <;> decide))).trans (tail3 m c),
     ((h c).2 main_v4 (mem_rest main_v4 rfl (fun w => by fin_cases w <;> decide))).trans (tail4 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.KernelIdeal.Hand

end
-- ==== Proof.RefSide.lean ====
/-
  The reference program's three results, read index by index at the extended reals.
-/
import proofs.«112217_j43198781063230_1_alg».proof.Proof.Gen.ReferenceIdeal.Read
import proofs.«112217_j43198781063230_1_alg».proof.Proof.Spec
import Idealize.ShloMosaic.Lib.ValueIdx
import Idealize.ShloMosaic.PureOps.Ideal.Laws

noncomputable section

namespace Cert.ReferenceIdeal.RefSide

open Cert.ReferenceIdeal Cert.ReferenceIdeal.Gen Idealize.ShloMosaic Idealize.ShloMosaic.TcCoe Idealize.SL.Sem Idealize.ShloMosaic.StableHlo
open Idealize.ShloMosaic.ValueIdx (ix1 ix2)

/-- An entry of the first array's scaled rows: the entry over its row's clamped length. -/
theorem hat_v7 (x0 : (⟨S4096x1024, .f32⟩ : BufTy).Contents (Elt Ideal)) (r : Fin 4096) (d : Fin 1024) :
    Read.val_main_v7 (F := Ideal) x0 (ix2 r d) = Cert.Spec.hat (Cert.Spec.rows x0 r) d := by
  have e1 : ∀ k : Fin 1024,
      Read.idx_main_v1 (Read.idx_main_v2 (Read.idx_main_v6 (ix2 r d))) k = ix2 r k :=
    fun k => funext fun a => Fin.ext (by match a with | ⟨0, _⟩ => rfl | ⟨1, _⟩ => rfl)
  rw [Read.val_main_v7_apply, Read.val_main_v6_apply, Read.val_main_v5_apply,
    Read.val_main_v3_apply, Read.val_main_v2_apply, Read.val_main_v1_apply,
    Read.val_main_v4_apply, Read.val_main_cst_0_apply, Read.val_main_cst_apply]
  simp only [e1, Read.val_main_v0_apply, Ideal.hostDivf_def, Ideal.maximumf_def,
    Ideal.hostUnary_sqrt_def, Ideal.mulf_def, Ideal.ofBits_def, Ideal.ofBits_zero_f32, zero_add]
  rfl

/-- An entry of the second array's scaled rows. -/
theorem hat_v15 (x1 : (⟨S4096x1024, .f32⟩ : BufTy).Contents (Elt Ideal)) (r : Fin 4096) (d : Fin 1024) :
    Read.val_main_v15 (F := Ideal) x1 (ix2 r d) = Cert.Spec.hat (Cert.Spec.rows x1 r) d := by
  have e1 : ∀ k : Fin 1024,
      Read.idx_main_v9 (Read.idx_main_v10 (Read.idx_main_v14 (ix2 r d))) k = ix2 r k :=
    fun k => funext fun a => Fin.ext (by match a with | ⟨0, _⟩ => rfl | ⟨1, _⟩ => rfl)
  rw [Read.val_main_v15_apply, Read.val_main_v14_apply, Read.val_main_v13_apply,
    Read.val_main_v11_apply, Read.val_main_v10_apply, Read.val_main_v9_apply,
    Read.val_main_v12_apply, Read.val_main_cst_2_apply, Read.val_main_cst_1_apply]
  simp only [e1, Read.val_main_v8_apply, Ideal.hostDivf_def, Ideal.maximumf_def,
    Ideal.hostUnary_sqrt_def, Ideal.mulf_def, Ideal.ofBits_def, Ideal.ofBits_zero_f32, zero_add]
  rfl

/-- An entry of the third array's scaled rows. -/
theorem hat_v23 (x2 : (⟨S4096x1024, .f32⟩ : BufTy).Contents (Elt Ideal)) (r : Fin 4096) (d : Fin 1024) :
    Read.val_main_v23 (F := Ideal) x2 (ix2 r d) = Cert.Spec.hat (Cert.Spec.rows x2 r) d := by
  have e1 : ∀ k : Fin 1024,
      Read.idx_main_v17 (Read.idx_main_v18 (Read.idx_main_v22 (ix2 r d))) k = ix2 r k :=
    fun k => funext fun a => Fin.ext (by match a with | ⟨0, _⟩ => rfl | ⟨1, _⟩ => rfl)
  rw [Read.val_main_v23_apply, Read.val_main_v22_apply, Read.val_main_v21_apply,
    Read.val_main_v19_apply, Read.val_main_v18_apply, Read.val_main_v17_apply,
    Read.val_main_v20_apply, Read.val_main_cst_4_apply, Read.val_main_cst_3_apply]
  simp only [e1, Read.val_main_v16_apply, Ideal.hostDivf_def, Ideal.maximumf_def,
    Ideal.hostUnary_sqrt_def, Ideal.mulf_def, Ideal.ofBits_def, Ideal.ofBits_zero_f32, zero_add]
  rfl

/-- The first product of scaled rows, at a pair of rows, is their similarity. -/
theorem cosim_v24 (x0 x1 : (⟨S4096x1024, .f32⟩ : BufTy).Contents (Elt Ideal)) (r c : Fin 4096) :
    Read.val_main_v24 (F := Ideal) x0 x1 (ix2 r c)
      = Cert.Spec.cosim (Cert.Spec.rows x0 r) (Cert.Spec.rows x1 c) := by
  have el : ∀ k : Fin 1024, Read.lidx_main_v24 (ix2 r c) k = ix2 r k :=
    fun k => funext fun a => Fin.ext (by match a with | ⟨0, _⟩ => rfl | ⟨1, _⟩ => rfl)
  have er : ∀ k : Fin 1024, Read.ridx_main_v24 (ix2 r c) k = ix2 c k :=
    fun k => funext fun a => Fin.ext (by match a with | ⟨0, _⟩ => rfl | ⟨1, _⟩ => rfl)
  rw [Read.val_main_v24_apply]
  simp only [el, er, hat_v7, hat_v15]
  rfl

/-- The second product of scaled rows, at a pair of rows, is their similarity. -/
theorem cosim_v25 (x0 x2 : (⟨S4096x1024, .f32⟩ : BufTy).Contents (Elt Ideal)) (r c : Fin 4096) :
    Read.val_main_v25 (F := Ideal) x0 x2 (ix2 r c)
      = Cert.Spec.cosim (Cert.Spec.rows x0 r) (Cert.Spec.rows x2 c) := by
  have el : ∀ k : Fin 1024, Read.lidx_main_v25 (ix2 r c) k = ix2 r k :=
    fun k => funext fun a => Fin.ext (by match a with | ⟨0, _⟩ => rfl | ⟨1, _⟩ => rfl)
  have er : ∀ k : Fin 1024, Read.ridx_main_v25 (ix2 r c) k = ix2 c k :=
    fun k => funext fun a => Fin.ext (by match a with | ⟨0, _⟩ => rfl | ⟨1, _⟩ => rfl)
  rw [Read.val_main_v25_apply]
  simp only [el, er, hat_v7, hat_v23]
  rfl

/-- The first total: the sum over every index of the square array is the double sum over pairs of rows. -/
theorem sumPos_v27 (x0 x1 : (⟨S4096x1024, .f32⟩ : BufTy).Contents (Elt Ideal)) (i : S_.Idx) :
    Read.val_main_v27 (F := Ideal) x0 x1 i
      = Cert.Spec.sumPos (Cert.Spec.rows x0) (Cert.Spec.rows x1) := by
  rw [Read.val_main_v27_apply, Read.val_main_cst_5_apply, ValueIdx.sum_idx2]
  simp only [Read.val_main_v26_apply, cosim_v24, Ideal.hostUnary_exp_def, Ideal.ofBits_def,
    Ideal.ofBits_zero_f32, zero_add]
  rfl

/-- The second total, of the exponentials of the squared similarities. -/
theorem sumNeg_v31 (x0 x2 : (⟨S4096x1024, .f32⟩ : BufTy).Contents (Elt Ideal)) (i : S_.Idx) :
    Read.val_main_v31 (F := Ideal) x0 x2 i
      = Cert.Spec.sumNeg (Cert.Spec.rows x0) (Cert.Spec.rows x2) := by
  rw [Read.val_main_v31_apply, Read.val_main_cst_7_apply, ValueIdx.sum_idx2]
  simp only [Read.val_main_v30_apply, Read.val_main_v29_apply, cosim_v25, Ideal.hostUnary_exp_def,
    Ideal.mulf_def, Ideal.ofBits_def, Ideal.ofBits_zero_f32, zero_add]
  rfl

/-- The first result is the loss: the scalar operations after the two totals spell `lossOf`. -/
theorem loss_eq (x0 x1 x2 : (⟨S4096x1024, .f32⟩ : BufTy).Contents (Elt Ideal)) (i : S_.Idx) :
    Read.val_main_v36 (F := Ideal) x0 x1 x2 i
      = Cert.Spec.loss (Cert.Spec.rows x0) (Cert.Spec.rows x1) (Cert.Spec.rows x2) := by
  rw [Read.val_main_v36_apply, Read.val_main_v35_apply, Read.val_main_v34_apply, Read.val_main_v33_apply,
    Read.val_main_v28_apply, Read.val_main_v32_apply, Read.val_main_cst_6_apply, Read.val_main_cst_8_apply,
    sumPos_v27, sumNeg_v31]
  simp only [Ideal.hostNegf_def, Ideal.negf_def, Ideal.hostUnary_log_def, Ideal.hostDivf_def, Ideal.addf_def,
    Ideal.ofBits_def]
  rfl

/-- Row 0 of the first product, reshaped to a vector, at a literal coordinate. -/
theorem rowPos_ix (x0 x1 : (⟨S4096x1024, .f32⟩ : BufTy).Contents (Elt Ideal)) (c : Fin 4096) :
    Read.val_main_v38 (F := Ideal) x0 x1 (ix1 c)
      = Cert.Spec.row0 (Cert.Spec.rows x0) (Cert.Spec.rows x1) c := by
  have e : Read.idx_main_v37 (Read.idx_main_v38 (ix1 c)) = ix2 (0 : Fin 4096) c :=
    funext fun a => Fin.ext (by
      match a with
      | ⟨0, _⟩ => rfl
      | ⟨1, _⟩ => exact Nat.mod_eq_of_lt c.isLt)
  rw [Read.val_main_v38_apply, Read.val_main_v37_apply, e, cosim_v24]
  rfl

/-- Row 0 of the second product, reshaped to a vector, at a literal coordinate. -/
theorem rowNeg_ix (x0 x2 : (⟨S4096x1024, .f32⟩ : BufTy).Contents (Elt Ideal)) (c : Fin 4096) :
    Read.val_main_v40 (F := Ideal) x0 x2 (ix1 c)
      = Cert.Spec.row0 (Cert.Spec.rows x0) (Cert.Spec.rows x2) c := by
  have e : Read.idx_main_v39 (Read.idx_main_v40 (ix1 c)) = ix2 (0 : Fin 4096) c :=
    funext fun a => Fin.ext (by
      match a with
      | ⟨0, _⟩ => rfl
      | ⟨1, _⟩ => exact Nat.mod_eq_of_lt c.isLt)
  rw [Read.val_main_v40_apply, Read.val_main_v39_apply, e, cosim_v25]
  rfl

/-- The second result: the similarities of row 0 of the first array with every row of the second. -/
theorem rowPos_eq (x0 x1 : (⟨S4096x1024, .f32⟩ : BufTy).Contents (Elt Ideal)) (i : S4096.Idx) :
    Read.val_main_v38 (F := Ideal) x0 x1 i
      = Cert.Spec.row0 (Cert.Spec.rows x0) (Cert.Spec.rows x1) (i 0) :=
  (congrArg (Read.val_main_v38 (F := Ideal) x0 x1) (ValueIdx.eq_ix1 i)).trans (rowPos_ix x0 x1 (i 0))

/-- The third result: the similarities of row 0 of the first array with every row of the third. -/
theorem rowNeg_eq (x0 x2 : (⟨S4096x1024, .f32⟩ : BufTy).Contents (Elt Ideal)) (i : S4096.Idx) :
    Read.val_main_v40 (F := Ideal) x0 x2 i
      = Cert.Spec.row0 (Cert.Spec.rows x0) (Cert.Spec.rows x2) (i 0) :=
  (congrArg (Read.val_main_v40 (F := Ideal) x0 x2) (ValueIdx.eq_ix1 i)).trans (rowNeg_ix x0 x2 (i 0))

end Cert.ReferenceIdeal.RefSide

end
-- ==== Proof.RefRun.lean ====
/-
  The reference program's run, read as values: it ends with the loss in its first result and row 0 of the two
  similarity matrices in the other two, as functions of its argument arrays.
-/
import proofs.«112217_j43198781063230_1_alg».proof.Proof.RefSide

noncomputable section

namespace Cert.ReferenceIdeal.RefRun

open Cert.ReferenceIdeal Cert.ReferenceIdeal.Gen
open Idealize.ShloMosaic Idealize.ShloMosaic.TcCoe Idealize.SL.Sem

theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v36) = (fun _ => Cert.Spec.loss (Cert.Spec.rows (m ((c.tc : Thread nD τ).loc main_arg0))) (Cert.Spec.rows (m ((c.tc : Thread nD τ).loc main_arg1))) (Cert.Spec.rows (m ((c.tc : Thread nD τ).loc main_arg2))))
      ∧ r.2.mem ((c.tc : Thread nD τ).loc main_v38) = (fun i => Cert.Spec.row0 (Cert.Spec.rows (m ((c.tc : Thread nD τ).loc main_arg0))) (Cert.Spec.rows (m ((c.tc : Thread nD τ).loc main_arg1))) (i 0))
      ∧ r.2.mem ((c.tc : Thread nD τ).loc main_v40) = (fun i => Cert.Spec.row0 (Cert.Spec.rows (m ((c.tc : Thread nD τ).loc main_arg0))) (Cert.Spec.rows (m ((c.tc : Thread nD τ).loc main_arg2))) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1.trans ((Read.val_main_v36_eq m c).trans (funext fun i => RefSide.loss_eq _ _ _ i)),
     (h c).2.1.trans ((Read.val_main_v38_eq (m ((c.tc : Thread nD τ).loc main_arg0)) (m ((c.tc : Thread nD τ).loc main_arg1))).trans (funext fun i => RefSide.rowPos_eq _ _ i)),
     (h c).2.2.1.trans ((Read.val_main_v40_eq (m ((c.tc : Thread nD τ).loc main_arg0)) (m ((c.tc : Thread nD τ).loc main_arg2))).trans (funext fun i => RefSide.rowNeg_eq _ _ i)),
     (h c).2.2.2⟩)
    (Cert.ReferenceIdeal.Value.run (F := Ideal) m ρ)

end Cert.ReferenceIdeal.RefRun

end
-- ==== Proof.lean ====
/-
  The certificate of one kernel against its reference.

  The kernel tiles the 4096 × 4096 pairs of rows of its arguments into 128 tiles of 256 × 512 pairs, visited in a grid of
  8 rows of 16 tiles. At each tile it scales the rows by their clamped Euclidean lengths, forms the two 256 × 512
  matrices of similarities, and adds the tile's totals of exp(similarity) and exp(similarity²) to two running sums that
  it cleared at the first tile; at the first tile of each row of tiles it also stores row 0 of the two similarity
  matrices. After the grid two means, their ratio, its logarithm and a negation give the loss. The reference forms the
  whole similarity matrices and sums them at once.

  Over the extended reals both compute the same three functions of the arguments (Spec): the kernel's running sums are
  sums over a partition of the pairs of rows, and addition there is commutative and associative, so no entry needs to
  be finite; every other operation is the same one on both sides, applied to the same entries.

  The three frames: the two kernels' by running the body once in each of its three control cases and following what the
  four output buffers hold from point to point (a row buffer, stored at the first tile of a row of tiles, is found
  unchanged by the fifteen tiles that follow and is written back after the last of them); the reference's is its run
  with the results dropped. The idealization rewrote nothing.
-/
import proofs.«112217_j43198781063230_1_alg».proof.Defs
import proofs.«112217_j43198781063230_1_alg».proof.Proof.Gen.Kernel
import proofs.«112217_j43198781063230_1_alg».proof.Proof.Gen.KernelIdeal
import proofs.«112217_j43198781063230_1_alg».proof.Proof.Gen.ReferenceIdeal
import proofs.«112217_j43198781063230_1_alg».proof.Proof.Gen.Pre_finite_inputs
import proofs.«112217_j43198781063230_1_alg».proof.Proof.BitsData
import proofs.«112217_j43198781063230_1_alg».proof.Proof.IdealFinal
import proofs.«112217_j43198781063230_1_alg».proof.Proof.RefRun
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.RefRun.run_value m ρ)

/-- Both idealized programs, run from memories agreeing on the arguments, end with the same three results. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _, _, Cert.KernelIdeal.Hand.run_value m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.RefRun.run_value m' ρ')
  · rw [(hagree c).1, (hagree c).2.1, (hagree c).2.2]
    rfl
  · rw [(hagree c).1, (hagree c).2.1]
    rfl
  · rw [(hagree c).1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
